-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S256x128 : Shape := ⟨2, ![256, 128]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S8x2048x256 .f32) (main_arg1 : FVec F S8x2048x2048 .f32) (main_arg2 : FVec F S256x256 .f32) (main_arg3 : FVec F S256x256 .f32) (main_arg4 : FVec F S256x128 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S256x128 : Shape := ⟨2, ![256, 128]⟩
abbrev S8x2048x128 : Shape := ⟨3, ![8, 2048, 128]⟩
abbrev S1x2048x256 : Shape := ⟨3, ![1, 2048, 256]⟩
abbrev S1x2048x2048 : Shape := ⟨3, ![1, 2048, 2048]⟩
abbrev S1x2048x128 : Shape := ⟨3, ![1, 2048, 128]⟩
abbrev S2048x256 : Shape := ⟨2, ![2048, 256]⟩
abbrev S2048x2048 : Shape := ⟨2, ![2048, 2048]⟩
abbrev S256x2048 : Shape := ⟨2, ![256, 2048]⟩
abbrev S2048x128 : Shape := ⟨2, ![2048, 128]⟩
abbrev S1x128 : Shape := ⟨2, ![1, 128]⟩
abbrev S128 : Shape := ⟨1, ![128]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256x256, .f32⟩
  | .hbm, ⟨4, _⟩ => ⟨S256x128, .f32⟩
  | .hbm, ⟨5, _⟩ => ⟨S8x2048x128, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x2048, .f32⟩
  | .local _ .vmem, ⟨3, _⟩ => ⟨S1x2048x2048, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S1x2048x128, .f32⟩
  | .local _ .vmem, ⟨8, _⟩ => ⟨S1x2048x128, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S256x256_S256x256_0_0 : ∀ a, (![0, 0] : Fin 2 → Nat) a + S256x256.size a ≤ S256x256.size a
  h_S256x256 : 0 < S256x256.numel
  slices_S2048x2048_o0_0_S256x2048 : S2048x2048.Slices ![0, 0] S256x2048
  slices_S2048x2048_o256_0_S256x2048 : S2048x2048.Slices ![256, 0] S256x2048
  slices_S2048x2048_o512_0_S256x2048 : S2048x2048.Slices ![512, 0] S256x2048
  slices_S2048x2048_o768_0_S256x2048 : S2048x2048.Slices ![768, 0] S256x2048
  slices_S2048x2048_o1024_0_S256x2048 : S2048x2048.Slices ![1024, 0] S256x2048
  slices_S2048x2048_o1280_0_S256x2048 : S2048x2048.Slices ![1280, 0] S256x2048
  slices_S2048x2048_o1536_0_S256x2048 : S2048x2048.Slices ![1536, 0] S256x2048
  slices_S2048x2048_o1792_0_S256x2048 : S2048x2048.Slices ![1792, 0] S256x2048
  concatenates_S256x256_S256x256_S256x256_S256x256_S256x256_S256x256_S256x256_S256x256_S2048x256_d0 : Shape.Concatenates [S256x256, S256x256, S256x256, S256x256, S256x256, S256x256, S256x256, S256x256] S2048x256 0
  inb_S256x128_S256x128_0_0 : ∀ a, (![0, 0] : Fin 2 → Nat) a + S256x128.size a ≤ S256x128.size a
  h_S256x128 : 0 < S256x128.numel
  reduces_S256x128_S128 : S256x128.Reduces [0] S128
  shapeCasts_S128_S1x128 : S128.ShapeCasts S1x128
  broadcasts_S1x128_S256x128 : S1x128.Broadcasts S256x128
  concatenates_S256x128_S256x128_S256x128_S256x128_S256x128_S256x128_S256x128_S256x128_S2048x128_d0 : Shape.Concatenates [S256x128, S256x128, S256x128, S256x128, S256x128, S256x128, S256x128, S256x128] S2048x128 0
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S2048x256_S256x256_S2048x256_1_0_0_1_n_n_wf : DotDims.WF S2048x256 S256x256 S2048x256 [1] [0] [0] [1] [] []
  dot_S256x2048_S2048x256_S256x256_1_0_0_1_n_n_wf : DotDims.WF S256x2048 S2048x256 S256x256 [1] [0] [0] [1] [] []
  dot_S2048x256_S256x128_S2048x128_1_0_0_1_n_n_wf : DotDims.WF S2048x256 S256x128 S2048x128 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .f32 = 32 ∨ (Rect.block (s := S8x2048x2048) S1x2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x128.size a ≤ S8x2048x128.size a
  hwx0_5 : ∀ i : grid0.Coords, EltTy.bits .f32 = 32 ∨ (Rect.block (s := S8x2048x128) S1x2048x128.size (cc0_transform_5 i) (hinb0_5 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S256x128 : Shape := ⟨2, ![256, 128]⟩
abbrev S_ : Shape := ⟨0, ![]⟩
abbrev S8x2048x128 : Shape := ⟨3, ![8, 2048, 128]⟩
abbrev S8x128 : Shape := ⟨2, ![8, 128]⟩
abbrev S8x1x128 : Shape := ⟨3, ![8, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256x256, .f32⟩
  | .hbm, ⟨4, _⟩ => ⟨S256x128, .f32⟩
  | .hbm, ⟨5, _⟩ => ⟨S8x2048x256, .f32⟩
  | .hbm, ⟨6, _⟩ => ⟨S8x2048x256, .f32⟩
  | .hbm, ⟨7, _⟩ => ⟨S_, .f32⟩
  | .hbm, ⟨8, _⟩ => ⟨S8x2048x256, .f32⟩
  | .hbm, ⟨9, _⟩ => ⟨S8x2048x256, .f32⟩
  | .hbm, ⟨10, _⟩ => ⟨S8x2048x256, .f32⟩
  | .hbm, ⟨11, _⟩ => ⟨S8x2048x256, .f32⟩
  | .hbm, ⟨12, _⟩ => ⟨S_, .f32⟩
  | .hbm, ⟨13, _⟩ => ⟨S8x2048x256, .f32⟩
  | .hbm, ⟨14, _⟩ => ⟨S8x2048x256, .f32⟩
  | .hbm, ⟨15, _⟩ => ⟨S8x2048x128, .f32⟩
  | .hbm, ⟨16, _⟩ => ⟨S8x2048x128, .f32⟩
  | .hbm, ⟨17, _⟩ => ⟨S_, .f32⟩
  | .hbm, ⟨18, _⟩ => ⟨S8x2048x128, .f32⟩
  | .hbm, ⟨19, _⟩ => ⟨S8x2048x128, .f32⟩
  | .hbm, ⟨20, _⟩ => ⟨S_, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x1x128, .f32⟩
  | .hbm, ⟨26, _⟩ => ⟨S8x2048x128, .f32⟩
  | .hbm, ⟨27, _⟩ => ⟨S8x2048x128, .f32⟩
  | .hbm, ⟨28, _⟩ => ⟨S8x2048x128, .f32⟩
  | .hbm, ⟨29, _⟩ => ⟨S_, .f32⟩
  | .hbm, ⟨30, _⟩ => ⟨S8x128, .f32⟩
  | .hbm, ⟨31, _⟩ => ⟨S8x1x128, .f32⟩
  | .hbm, ⟨32, _⟩ => ⟨S8x1x128, .f32⟩
  | .hbm, ⟨33, _⟩ => ⟨S8x2048x128, .f32⟩
  | .hbm, ⟨34, _⟩ => ⟨S8x2048x128, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩
abbrev main_call3_cst : Ref sig .tc := ⟨.hbm, 20, rfl⟩
abbrev main_call3_v0 : Ref sig .tc := ⟨.hbm, 21, rfl⟩
abbrev main_call3_cst_0 : Ref sig .tc := ⟨.hbm, 22, rfl⟩
abbrev main_call3_v1 : Ref sig .tc := ⟨.hbm, 23, rfl⟩
abbrev main_call3_v2 : Ref sig .tc := ⟨.hbm, 24, rfl⟩
abbrev main_call3_v3 : Ref sig .tc := ⟨.hbm, 25, rfl⟩
abbrev main_call3_v4 : Ref sig .tc := ⟨.hbm, 26, rfl⟩
abbrev main_call3_v5 : Ref sig .tc := ⟨.hbm, 27, rfl⟩
abbrev main_call3_v6 : Ref sig .tc := ⟨.hbm, 28, rfl⟩
abbrev main_call3_cst_1 : Ref sig .tc := ⟨.hbm, 29, rfl⟩
abbrev main_call3_v7 : Ref sig .tc := ⟨.hbm, 30, rfl⟩
abbrev main_call3_v8 : Ref sig .tc := ⟨.hbm, 31, rfl⟩
abbrev main_call3_v9 : Ref sig .tc := ⟨.hbm, 32, rfl⟩
abbrev main_call3_v10 : Ref sig .tc := ⟨.hbm, 33, rfl⟩
abbrev main_v9 : Ref sig .tc := ⟨.hbm, 34, rfl⟩

abbrev nD : Nat := 1
abbrev τ : Topo := Topo.v7x

variable {F : FTy → Type} [FloatOps F]

class Facts₀ : Prop where
  bcast_S_S8x2048x256 : S_.BroadcastsInDim S8x2048x256 (![] : Fin 0 → Fin S8x2048x256.rank)
  bcast_S_S8x2048x128 : S_.BroadcastsInDim S8x2048x128 (![] : Fin 0 → Fin S8x2048x128.rank)
  reducesTo_S8x2048x128_S8x128_d1 : S8x2048x128.ReducesTo [1] S8x128
  h_S_ : 0 < S_.numel
  bcast_S_S8x128 : S_.BroadcastsInDim S8x128 (![] : Fin 0 → Fin S8x128.rank)
  bcast_S8x128_S8x1x128_0_2 : S8x128.BroadcastsInDim S8x1x128 (![0, 2] : Fin 2 → Fin S8x1x128.rank)
  bcast_S8x1x128_S8x2048x128_0_1_2 : S8x1x128.BroadcastsInDim S8x2048x128 (![0, 1, 2] : Fin 3 → Fin S8x2048x128.rank)
  dot_S8x2048x256_S256x256_S8x2048x256_2_0_01_1_n_n_wf : DotDims.WF S8x2048x256 S256x256 S8x2048x256 [2] [0] [0, 1] [1] [] []
  dot_S8x2048x2048_S8x2048x256_S8x2048x256_2_1_1_2_0_0_wf : DotDims.WF S8x2048x2048 S8x2048x256 S8x2048x256 [2] [1] [1] [2] [0] [0]
  dot_S8x2048x256_S256x128_S8x2048x128_2_0_01_1_n_n_wf : DotDims.WF S8x2048x256 S256x128 S8x2048x128 [2] [0] [0, 1] [1] [] []
  dot_S8x2048x2048_S8x2048x128_S8x2048x128_2_1_1_2_0_0_wf : DotDims.WF S8x2048x2048 S8x2048x128 S8x2048x128 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf
def dot_S8x2048x256_S256x128_S8x2048x128_2_0_01_1_n_n : DotDims S8x2048x256 S256x128 S8x2048x128 where
  lhsContracting := [2]
  rhsContracting := [0]
  lhsNonContracting := [0, 1]
  rhsNonContracting := [1]
  lhsBatch := []
  rhsBatch := []
  wf := dot_S8x2048x256_S256x128_S8x2048x128_2_0_01_1_n_n_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Spec.lean ====
/-
  What both programs compute, as one function of the five argument arrays, on the extended reals.

  For one graph b the adjacency block A is [2048, 2048], the features X are [2048, 256], and the weights are
  W1, W2 : [256, 256] and W3 : [256, 128]. A layer sends H to max (A · (H · W)) 0, entry by entry, the two
  products being plain sums over the contracted coordinate. Three layers give the hidden values [2048, 128].
  The result is the log-softmax of each COLUMN of the hidden values (over the 2048 nodes).

  The log-softmax of a column h is written in two ways. The first subtracts the column's maximum M (taken from −∞),
  then the logarithm of the sum of the exponentials of the shifted entries: (h n − M) − log (0 + Σ exp (h i − M)).
  The second runs once over the column in eight slabs of 256 rows, carrying a pair (m, s): the maximum so far,
  started at 0, and the sum so far of exp (h i − m), started at 0. A slab g moves the pair to
  m' = max m (max of g from −∞) and s' = s · exp (m − m') + Σ exp (g r − m'); the result is h n − (m + log s) for the
  last pair. That the two agree for a column of nonnegative real numbers is proved separately.
-/
import Idealize.ShloMosaic.PureOps.Ideal
import Idealize.ShloMosaic.Lib.ValueIdx

noncomputable section

open scoped BigOperators

namespace Cert.Spec

open Idealize.ShloMosaic Idealize.ShloMosaic.ValueIdx

/-- Entry (p, q) of the product of two matrices of extended reals. -/
def mm {M K N : Nat} (A : Fin M → Fin K → EReal) (B : Fin K → Fin N → EReal) (p : Fin M) (q : Fin N) : EReal :=
  ∑ k : Fin K, A p k * B k q

/-- One layer: entry (n, e) of max (A · (H · W)) 0. -/
def layer {N D E : Nat} (A : Fin N → Fin N → EReal) (H : Fin N → Fin D → EReal) (W : Fin D → Fin E → EReal)
    (n : Fin N) (e : Fin E) : EReal :=
  max (mm A (mm H W) n e) 0

/-- The three layers of one graph. -/
def hidden (A : Fin 2048 → Fin 2048 → EReal) (X : Fin 2048 → Fin 256 → EReal) (W1 W2 : Fin 256 → Fin 256 → EReal)
    (W3 : Fin 256 → Fin 128 → EReal) : Fin 2048 → Fin 128 → EReal :=
  layer A (layer A (layer A X W1) W2) W3

/-- A layer's entries are nonnegative. -/
theorem layer_nonneg {N D E : Nat} (A : Fin N → Fin N → EReal) (H : Fin N → Fin D → EReal) (W : Fin D → Fin E → EReal)
    (n : Fin N) (e : Fin E) : 0 ≤ layer A H W n e :=
  le_max_right _ _

/-- The maximum of a column, taken from −∞. -/
def colMax {N : Nat} (h : Fin N → EReal) : EReal := Finset.univ.fold max ⊥ h

/-- Log-softmax of a column, shifted by the column's maximum. -/
def logSoftmax {N : Nat} (h : Fin N → EReal) (n : Fin N) : EReal :=
  (h n - colMax h) - Ideal.log (0 + ∑ i : Fin N, Ideal.exp (h i - colMax h))

/-- One step of the running pair (maximum so far, sum so far of the exponentials shifted by it) over a slab g. -/
def step {R : Nat} (g : Fin R → EReal) (ms : EReal × EReal) : EReal × EReal :=
  (max ms.1 (colMax g),
    ms.2 * Ideal.exp (ms.1 - max ms.1 (colMax g)) + ∑ r : Fin R, Ideal.exp (g r - max ms.1 (colMax g)))

/-- Slab i of a column of 2048 entries: rows 256 i, …, 256 i + 255. -/
def slabOf (h : Fin 2048 → EReal) (i : Fin 8) (r : Fin 256) : EReal :=
  h ⟨256 * i.val + r.val, by have := i.isLt; have := r.isLt; omega⟩

/-- The running pair after all eight slabs, started at (0, 0). -/
def online (h : Fin 2048 → EReal) : EReal × EReal :=
  step (slabOf h 7) (step (slabOf h 6) (step (slabOf h 5) (step (slabOf h 4) (step (slabOf h 3) (step (slabOf h 2)
    (step (slabOf h 1) (step (slabOf h 0) (0, 0))))))))

/-- Log-softmax of a column from the running pair. -/
def onlineLogSoftmax (h : Fin 2048 → EReal) (n : Fin 2048) : EReal :=
  h n - ((online h).1 + Ideal.log (online h).2)

/-- The hidden values' column e for graph b, read off the argument arrays. -/
def column (x : (⟨3, ![8, 2048, 256]⟩ : Shape).Idx → EReal) (adj : (⟨3, ![8, 2048, 2048]⟩ : Shape).Idx → EReal)
    (w1 w2 : (⟨2, ![256, 256]⟩ : Shape).Idx → EReal) (w3 : (⟨2, ![256, 128]⟩ : Shape).Idx → EReal)
    (b : Fin 8) (e : Fin 128) (n : Fin 2048) : EReal :=
  hidden (fun p k => adj (ix3 b p k)) (fun p d => x (ix3 b p d)) (fun d c => w1 (ix2 d c)) (fun d c => w2 (ix2 d c))
    (fun d c => w3 (ix2 d c)) n e

/-- The result array: entry (b, n, e) is the log-softmax, over the nodes, of column e of graph b's hidden values. -/
def out (x : (⟨3, ![8, 2048, 256]⟩ : Shape).Idx → EReal) (adj : (⟨3, ![8, 2048, 2048]⟩ : Shape).Idx → EReal)
    (w1 w2 : (⟨2, ![256, 256]⟩ : Shape).Idx → EReal) (w3 : (⟨2, ![256, 128]⟩ : Shape).Idx → EReal) :
    (⟨3, ![8, 2048, 128]⟩ : Shape).Idx → EReal :=
  fun i => logSoftmax (column x adj w1 w2 w3 (i 0) (i 2)) (i 1)

theorem out_apply (x : (⟨3, ![8, 2048, 256]⟩ : Shape).Idx → EReal) (adj : (⟨3, ![8, 2048, 2048]⟩ : Shape).Idx → EReal)
    (w1 w2 : (⟨2, ![256, 256]⟩ : Shape).Idx → EReal) (w3 : (⟨2, ![256, 128]⟩ : Shape).Idx → EReal)
    (b : Fin 8) (n : Fin 2048) (e : Fin 128) :
    out x adj w1 w2 w3 (ix3 b n e) = logSoftmax (column x adj w1 w2 w3 b e) n := rfl

/-- Every entry of a column of hidden values is nonnegative. -/
theorem column_nonneg (x : (⟨3, ![8, 2048, 256]⟩ : Shape).Idx → EReal) (adj : (⟨3, ![8, 2048, 2048]⟩ : Shape).Idx → EReal)
    (w1 w2 : (⟨2, ![256, 256]⟩ : Shape).Idx → EReal) (w3 : (⟨2, ![256, 128]⟩ : Shape).Idx → EReal)
    (b : Fin 8) (e : Fin 128) (n : Fin 2048) : 0 ≤ column x adj w1 w2 w3 b e n :=
  layer_nonneg _ _ _ _ _

end Cert.Spec

end
-- ==== Proof.OnlineSoftmax.lean ====
/-
  The two ways of writing the log-softmax of a column agree on a column of nonnegative real numbers.

  Carry the column in eight slabs of 256 rows. After the first i slabs the running pair (m, s) is: m, a real number,
  at least 0, at least every row seen so far, and either 0 or equal to one of those rows; and s, the sum over the rows
  seen so far of exp (row − m). One more slab g with largest entry c moves m to m' = max m c and s to
  s · exp (m − m') + Σ exp (g r − m'). Since exp (a − m) · exp (m − m') = exp (a − m') and a product distributes over
  a finite sum of reals, the first summand is the sum over the old rows of exp (row − m'), so the new s is again the
  sum over all rows seen. (These two laws are where real, not extended-real, entries are needed: ∞ − ∞ is not 0.)
  After eight slabs every row has been seen: m is the largest entry of the column — the rows are nonnegative, so the
  starting value 0 does not exceed it — which is also the column's maximum taken from −∞, and s is the sum over the whole
  column of exp (h i − m), a positive real, whose logarithm is therefore a real number. Finally
  h n − (m + log s) = (h n − m) − log s in the reals.
-/
import proofs.«108354_g83425444758234_cont_9to1c4b_234_15_alg».proof.Proof.Spec

noncomputable section

open scoped BigOperators

namespace Cert.Spec

open Idealize.ShloMosaic

/-- The inclusion of the reals in the extended reals commutes with finite sums. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- and with the maximum of two numbers. -/
theorem coe_max (a b : ℝ) : max (a : EReal) (b : EReal) = ((max a b : ℝ) : EReal) :=
  (EReal.coe_strictMono.monotone.map_max).symm

/-- The column's maximum from −∞ is its least upper bound. -/
theorem colMax_le_iff {N : Nat} (h : Fin N → EReal) (x : EReal) : colMax h ≤ x ↔ ∀ n, h n ≤ x := by
  unfold colMax
  rw [Finset.fold_max_le]
  exact ⟨fun hx n => hx.2 n (Finset.mem_univ n), fun hx => ⟨bot_le, fun n _ => hx n⟩⟩

theorem le_colMax {N : Nat} (h : Fin N → EReal) (n : Fin N) : h n ≤ colMax h :=
  (colMax_le_iff h (colMax h)).1 le_rfl n

/-- The maximum of a nonempty column of real numbers is one of its entries (so it is a real number). -/
theorem colMax_coe {R : Nat} (hR : 0 < R) (g : Fin R → ℝ) :
    ∃ c : ℝ, colMax (fun r => (g r : EReal)) = (c : EReal) ∧ (∀ r, g r ≤ c) ∧ ∃ r, g r = c := by
  have hle := fun r => le_colMax (fun r => (g r : EReal)) r
  have hmem : colMax (fun r => (g r : EReal)) ≤ ⊥
      ∨ ∃ r ∈ (Finset.univ : Finset (Fin R)), colMax (fun r => (g r : EReal)) ≤ (g r : EReal) :=
    (Finset.le_fold_max (s := Finset.univ) (b := (⊥ : EReal)) (f := fun r => (g r : EReal))
      (c := colMax (fun r => (g r : EReal)))).1 le_rfl
  rcases hmem with hbot | ⟨r0, _, hr0⟩
  · exact absurd (le_bot_iff.1 (le_trans (hle ⟨0, hR⟩) hbot)) (EReal.coe_ne_bot _)
  · have heq : colMax (fun r => (g r : EReal)) = (g r0 : EReal) := le_antisymm hr0 (hle r0)
    exact ⟨g r0, heq, fun r => EReal.coe_le_coe_iff.1 (heq ▸ hle r), r0, rfl⟩

/-- Row r of slab j of a real column. -/
def slabR (hr : Fin 2048 → ℝ) (j : Fin 8) (r : Fin 256) : ℝ :=
  hr ⟨256 * j.val + r.val, by have := j.isLt; have := r.isLt; omega⟩

theorem slabOf_coe (hr : Fin 2048 → ℝ) (j : Fin 8) :
    slabOf (fun n => (hr n : EReal)) j = fun r => (slabR hr j r : EReal) := rfl

/-- What the running pair is after the first i slabs of a real column. -/
def Inv (hr : Fin 2048 → ℝ) (i : Nat) (ms : EReal × EReal) : Prop :=
  ∃ m : ℝ, ms.1 = (m : EReal) ∧ 0 ≤ m ∧ (∀ j : Fin 8, j.val < i → ∀ r, slabR hr j r ≤ m)
    ∧ (m = 0 ∨ ∃ j : Fin 8, j.val < i ∧ ∃ r, slabR hr j r = m)
    ∧ ms.2 = ((∑ j ∈ Finset.univ.filter (fun j : Fin 8 => j.val < i), ∑ r : Fin 256, Real.exp (slabR hr j r - m) : ℝ) : EReal)

/-- Before any slab the pair is (0, 0): no row seen, the empty sum. -/
theorem inv_zero (hr : Fin 2048 → ℝ) : Inv hr 0 (0, 0) :=
  ⟨0, rfl, le_rfl, fun _ hj => absurd hj (Nat.not_lt_zero _), Or.inl rfl, by simp⟩

/-- One more slab keeps the description. -/
theorem inv_step (hr : Fin 2048 → ℝ) (i : Nat) (ms : EReal × EReal) (hinv : Inv hr i ms) (j : Fin 8) (hj : j.val = i) :
    Inv hr (i + 1) (step (slabOf (fun n => (hr n : EReal)) j) ms) := by
  obtain ⟨m, hm1, hm0, hub, hatt, hs⟩ := hinv
  obtain ⟨c, hc, hcub, r0, hr0⟩ := colMax_coe (by norm_num : 0 < 256) (slabR hr j)
  have hmax : max ms.1 (colMax (slabOf (fun n => (hr n : EReal)) j)) = ((max m c : ℝ) : EReal) := by
    rw [slabOf_coe, hc, hm1, coe_max]
  -- the real identity behind the new sum: rescale the old rows, add the new slab's
  have hfil : Finset.univ.filter (fun j' : Fin 8 => j'.val < i + 1)
      = insert j (Finset.univ.filter (fun j' : Fin 8 => j'.val < i)) := by
    ext j'
    simp only [Finset.mem_filter, Finset.mem_univ, true_and, Finset.mem_insert]
    constructor
    · intro h
      rcases Nat.lt_succ_iff_lt_or_eq.1 h with h | h
      · exact Or.inr h
      · exact Or.inl (Fin.ext (h.trans hj.symm))
    · rintro (rfl | h)
      · omega
      · omega
  have hnot : j ∉ Finset.univ.filter (fun j' : Fin 8 => j'.val < i) := by simp [hj]
  have hreal : (∑ j' ∈ Finset.univ.filter (fun j' : Fin 8 => j'.val < i), ∑ r : Fin 256, Real.exp (slabR hr j' r - m))
        * Real.exp (m - max m c) + ∑ r : Fin 256, Real.exp (slabR hr j r - max m c)
      = ∑ j' ∈ Finset.univ.filter (fun j' : Fin 8 => j'.val < i + 1), ∑ r : Fin 256, Real.exp (slabR hr j' r - max m c) := by
    rw [hfil, Finset.sum_insert hnot, Finset.sum_mul, add_comm]
    congr 1
    refine Finset.sum_congr rfl fun j' _ => ?_
    rw [Finset.sum_mul]
    refine Finset.sum_congr rfl fun r _ => ?_
    rw [← Real.exp_add]
    congr 1
    ring
  refine ⟨max m c, hmax, le_trans hm0 (le_max_left _ _), ?_, ?_, ?_⟩
  · intro j' hj' r
    rcases Nat.lt_succ_iff_lt_or_eq.1 hj' with hlt | heq
    · exact le_trans (hub j' hlt r) (le_max_left _ _)
    · have hjj : j' = j := Fin.ext (heq.trans hj.symm)
      subst hjj
      exact le_trans (hcub r) (le_max_right _ _)
  · rcases le_total c m with hcm | hmc
    · rw [max_eq_left hcm]
      rcases hatt with h0 | ⟨j', hj', r, hr'⟩
      · exact Or.inl h0
      · exact Or.inr ⟨j', Nat.lt_succ_of_lt hj', r, hr'⟩
    · rw [max_eq_right hmc]
      exact Or.inr ⟨j, by omega, r0, hr0⟩
  · show ms.2 * Ideal.exp (ms.1 - max ms.1 (colMax (slabOf (fun n => (hr n : EReal)) j)))
        + ∑ r : Fin 256, Ideal.exp (slabOf (fun n => (hr n : EReal)) j r - max ms.1 (colMax (slabOf (fun n => (hr n : EReal)) j))) = _
    rw [hmax, hs, hm1, ← hreal, EReal.coe_add, EReal.coe_mul]
    simp only [slabOf_coe, ← EReal.coe_sub, Ideal.exp_coe, coe_sum]

/-- The sum over a column of 2048 entries, slab by slab. -/
theorem sum_slabs (F : Fin 2048 → ℝ) :
    ∑ n : Fin 2048, F n = ∑ j : Fin 8, ∑ r : Fin 256, F ⟨256 * j.val + r.val, by have := j.isLt; have := r.isLt; omega⟩ := by
  have h := Equiv.sum_comp (finProdFinEquiv : Fin 8 × Fin 256 ≃ Fin (8 * 256)) (F : Fin (8 * 256) → ℝ)
  rw [Fintype.sum_prod_type] at h
  refine h.symm.trans ?_
  refine Finset.sum_congr rfl fun j _ => Finset.sum_congr rfl fun r _ => congrArg F (Fin.ext ?_)
  show r.val + 256 * j.val = 256 * j.val + r.val
  omega

/-- On a column of nonnegative real numbers the running form of the log-softmax is the shifted form. -/
theorem online_eq (hr : Fin 2048 → ℝ) (hpos : ∀ n, 0 ≤ hr n) (n : Fin 2048) :
    onlineLogSoftmax (fun n => (hr n : EReal)) n = logSoftmax (fun n => (hr n : EReal)) n := by
  -- the description of the pair, carried through the eight slabs in turn
  have i1 := inv_step hr 0 _ (inv_zero hr) 0 rfl
  have i2 := inv_step hr 1 _ i1 1 rfl
  have i3 := inv_step hr 2 _ i2 2 rfl
  have i4 := inv_step hr 3 _ i3 3 rfl
  have i5 := inv_step hr 4 _ i4 4 rfl
  have i6 := inv_step hr 5 _ i5 5 rfl
  have i7 := inv_step hr 6 _ i6 6 rfl
  have h8 : Inv hr 8 (online (fun n => (hr n : EReal))) := inv_step hr 7 _ i7 7 rfl
  obtain ⟨M, hM1, hM0, hub, hatt, hS⟩ := h8
  -- every entry of the column is at most M
  have hle : ∀ k : Fin 2048, hr k ≤ M := fun k => by
    have hk := k.isLt
    have h1 := hub ⟨k.val / 256, by omega⟩ (by show k.val / 256 < 8; omega) ⟨k.val % 256, Nat.mod_lt _ (by norm_num)⟩
    have e : slabR hr ⟨k.val / 256, by omega⟩ ⟨k.val % 256, Nat.mod_lt _ (by norm_num)⟩ = hr k :=
      congrArg hr (Fin.ext (Nat.div_add_mod k.val 256))
    rwa [e] at h1
  -- and M is one of them
  have hatt' : ∃ k : Fin 2048, hr k = M := by
    rcases hatt with h0 | ⟨j, _, r, hjr⟩
    · exact ⟨0, le_antisymm (hle 0) (h0 ▸ hpos 0)⟩
    · exact ⟨_, hjr⟩
  -- so M is the column's maximum taken from −∞
  have hcol : colMax (fun n => (hr n : EReal)) = (M : EReal) := by
    refine le_antisymm ((colMax_le_iff _ _).2 fun k => EReal.coe_le_coe_iff.2 (hle k)) ?_
    obtain ⟨k0, hk0⟩ := hatt'
    rw [← hk0]
    exact le_colMax (fun n => (hr n : EReal)) k0
  -- the eight slabs' sums are the column's sum
  have hsum : (∑ j ∈ Finset.univ.filter (fun j : Fin 8 => j.val < 8), ∑ r : Fin 256, Real.exp (slabR hr j r - M))
      = ∑ k : Fin 2048, Real.exp (hr k - M) := by
    rw [Finset.filter_true_of_mem (fun j _ => j.isLt)]
    exact (sum_slabs (fun k => Real.exp (hr k - M))).symm
  have hSpos : 0 < ∑ k : Fin 2048, Real.exp (hr k - M) :=
    Finset.sum_pos (fun k _ => Real.exp_pos _) ⟨0, Finset.mem_univ _⟩
  have hexp : (∑ i : Fin 2048, Ideal.exp ((hr i : EReal) - (M : EReal))) = ((∑ k : Fin 2048, Real.exp (hr k - M) : ℝ) : EReal) := by
    rw [coe_sum]
    simp only [← EReal.coe_sub, Ideal.exp_coe]
  have hlog : Ideal.log ((∑ k : Fin 2048, Real.exp (hr k - M) : ℝ) : EReal) = ((Real.log (∑ k : Fin 2048, Real.exp (hr k - M)) : ℝ) : EReal) := by
    rw [Ideal.log_coe, if_neg (not_le.2 hSpos)]
  unfold onlineLogSoftmax logSoftmax
  rw [hM1, hS, hsum, hcol, hexp, zero_add, hlog, ← EReal.coe_add, ← EReal.coe_sub, ← EReal.coe_sub, ← EReal.coe_sub,
    sub_add_eq_sub_sub]

end Cert.Spec

end
-- ==== Proof.RealColumn.lean ====
/-
  The hidden values of a graph are real numbers when the argument arrays are, so the running form of the result is
  the shifted form.

  A product of two matrices of real numbers has real entries (a finite sum of products of reals), the maximum of a
  real number and 0 is real, hence so is every entry after one, two, three layers. Each column of the hidden values is
  then a column of nonnegative real numbers, on which the two forms of the log-softmax agree.
-/
import proofs.«108354_g83425444758234_cont_9to1c4b_234_15_alg».proof.Proof.OnlineSoftmax

noncomputable section

open scoped BigOperators

namespace Cert.Spec

open Idealize.ShloMosaic Idealize.ShloMosaic.ValueIdx

/-- Every entry of the matrix is a real number. -/
def IsRealM {M N : Nat} (A : Fin M → Fin N → EReal) : Prop :=
  ∃ Ar : Fin M → Fin N → ℝ, ∀ p q, A p q = (Ar p q : EReal)

/-- A product of real matrices is real: entry (p, q) is the real sum of the real products. -/
theorem mm_real {M K N : Nat} {A : Fin M → Fin K → EReal} {B : Fin K → Fin N → EReal} (hA : IsRealM A) (hB : IsRealM B) :
    IsRealM (mm A B) := by
  obtain ⟨Ar, hAr⟩ := hA
  obtain ⟨Br, hBr⟩ := hB
  refine ⟨fun p q => ∑ k : Fin K, Ar p k * Br k q, fun p q => ?_⟩
  unfold mm
  rw [coe_sum]
  exact Finset.sum_congr rfl fun k _ => by rw [hAr, hBr, EReal.coe_mul]

/-- A layer of real matrices is real: the maximum of a real number and 0. -/
theorem layer_real {N D E : Nat} {A : Fin N → Fin N → EReal} {H : Fin N → Fin D → EReal} {W : Fin D → Fin E → EReal}
    (hA : IsRealM A) (hH : IsRealM H) (hW : IsRealM W) : IsRealM (layer A H W) := by
  obtain ⟨Pr, hPr⟩ := mm_real hA (mm_real hH hW)
  refine ⟨fun n e => max (Pr n e) 0, fun n e => ?_⟩
  unfold layer
  rw [hPr, ← EReal.coe_zero, coe_max]

theorem hidden_real {A : Fin 2048 → Fin 2048 → EReal} {X : Fin 2048 → Fin 256 → EReal} {W1 W2 : Fin 256 → Fin 256 → EReal}
    {W3 : Fin 256 → Fin 128 → EReal} (hA : IsRealM A) (hX : IsRealM X) (hW1 : IsRealM W1) (hW2 : IsRealM W2) (hW3 : IsRealM W3) :
    IsRealM (hidden A X W1 W2 W3) :=
  layer_real hA (layer_real hA (layer_real hA hX hW1) hW2) hW3

/-- The result array in the running form: entry (b, n, e) from the running pair of column e of graph b. -/
def outOnline (x : (⟨3, ![8, 2048, 256]⟩ : Shape).Idx → EReal) (adj : (⟨3, ![8, 2048, 2048]⟩ : Shape).Idx → EReal)
    (w1 w2 : (⟨2, ![256, 256]⟩ : Shape).Idx → EReal) (w3 : (⟨2, ![256, 128]⟩ : Shape).Idx → EReal) :
    (⟨3, ![8, 2048, 128]⟩ : Shape).Idx → EReal :=
  fun i => onlineLogSoftmax (column x adj w1 w2 w3 (i 0) (i 2)) (i 1)

theorem outOnline_apply (x : (⟨3, ![8, 2048, 256]⟩ : Shape).Idx → EReal) (adj : (⟨3, ![8, 2048, 2048]⟩ : Shape).Idx → EReal)
    (w1 w2 : (⟨2, ![256, 256]⟩ : Shape).Idx → EReal) (w3 : (⟨2, ![256, 128]⟩ : Shape).Idx → EReal)
    (b : Fin 8) (n : Fin 2048) (e : Fin 128) :
    outOnline x adj w1 w2 w3 (ix3 b n e) = onlineLogSoftmax (column x adj w1 w2 w3 b e) n := rfl

/-- With every entry of the five argument arrays a real number, the running form of the result is the shifted form. -/
theorem outOnline_eq_out (x : (⟨3, ![8, 2048, 256]⟩ : Shape).Idx → EReal) (adj : (⟨3, ![8, 2048, 2048]⟩ : Shape).Idx → EReal)
    (w1 w2 : (⟨2, ![256, 256]⟩ : Shape).Idx → EReal) (w3 : (⟨2, ![256, 128]⟩ : Shape).Idx → EReal)
    (hx : ∀ i, ∃ r : ℝ, x i = (r : EReal)) (hadj : ∀ i, ∃ r : ℝ, adj i = (r : EReal)) (hw1 : ∀ i, ∃ r : ℝ, w1 i = (r : EReal))
    (hw2 : ∀ i, ∃ r : ℝ, w2 i = (r : EReal)) (hw3 : ∀ i, ∃ r : ℝ, w3 i = (r : EReal)) :
    outOnline x adj w1 w2 w3 = out x adj w1 w2 w3 := by
  funext i
  have hcol : IsRealM (hidden (fun p k => adj (ix3 (i 0) p k)) (fun p d => x (ix3 (i 0) p d)) (fun d c => w1 (ix2 d c))
      (fun d c => w2 (ix2 d c)) (fun d c => w3 (ix2 d c))) :=
    hidden_real ⟨fun p k => (hadj (ix3 (i 0) p k)).choose, fun p k => (hadj (ix3 (i 0) p k)).choose_spec⟩
      ⟨fun p d => (hx (ix3 (i 0) p d)).choose, fun p d => (hx (ix3 (i 0) p d)).choose_spec⟩
      ⟨fun d c => (hw1 (ix2 d c)).choose, fun d c => (hw1 (ix2 d c)).choose_spec⟩
      ⟨fun d c => (hw2 (ix2 d c)).choose, fun d c => (hw2 (ix2 d c)).choose_spec⟩
      ⟨fun d c => (hw3 (ix2 d c)).choose, fun d c => (hw3 (ix2 d c)).choose_spec⟩
  obtain ⟨Hr, hHr⟩ := hcol
  have hfun : column x adj w1 w2 w3 (i 0) (i 2) = fun n => ((Hr n (i 2) : ℝ) : EReal) := funext fun n => hHr n (i 2)
  have hpos : ∀ n, 0 ≤ Hr n (i 2) := fun n => by
    have h0 := column_nonneg x adj w1 w2 w3 (i 0) (i 2) n
    rw [hfun] at h0
    exact EReal.coe_nonneg.1 h0
  show onlineLogSoftmax (column x adj w1 w2 w3 (i 0) (i 2)) (i 1) = logSoftmax (column x adj w1 w2 w3 (i 0) (i 2)) (i 1)
  rw [hfun]
  exact online_eq (fun n => Hr n (i 2)) hpos (i 1)

end Cert.Spec

end
-- ==== Proof.Finite.lean ====
/-
  From the precondition to real entries.

  The precondition is the conjunction, over the five argument arrays, of "every entry's absolute value is below +∞",
  each written as an `and`-reduction of the entrywise comparisons to a single bit. A conjunction of bits is 1 only
  if each is; an `and`-reduction is 1 only if every entry's bit is; and an extended real x with max x (−x) < +∞ is
  neither +∞ nor −∞, so it is a real number.
-/
import proofs.«108354_g83425444758234_cont_9to1c4b_234_15_alg».proof.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Finite

open Idealize.ShloMosaic Idealize.ShloMosaic.ValueIdx Cert.Pre_finite_inputs

/-- The shape with no axes has one index. -/
instance : Subsingleton S_.Idx := ⟨fun _ _ => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 denotes +∞. -/
theorem ofBits_pos_inf : Ideal.ofBits .f32 0x7F800000#32 = (⊤ : EReal) := by simp [Ideal.ofBits, Ideal.ieee]

/-- A comparison bit "x < y" that is 1 says x < y. -/
theorem lt_of_cmp_olt (x y : EReal) (h : Ideal.cmp .olt x y = 1#1) : x < y := by
  by_contra hlt
  have h0 : Ideal.cmp .olt x y = 0#1 := by simp [Ideal.cmp, hlt]
  rw [h0] at h
  exact absurd h (by decide)

variable [Cert.Pre_finite_inputs.Facts]

open Cert.Pre_finite_inputs.Facts

/-- One array: if the bit of entry i in "|a| < +∞" is 1 then entry i is a real number. -/
theorem entry_real {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have h1 : Ideal.cmp .olt (max (a i) (-(a i))) (Ideal.ofBits .f32 0x7F800000#32) = 1#1 := h
  rw [ofBits_pos_inf] at h1
  exact real_of_abs_lt_top (a i) (lt_of_cmp_olt _ _ h1)

/-- Under the precondition every entry of each of the five argument arrays is a real number. -/
theorem reals_of_pre (a0 : FVec Ideal S8x2048x256 .f32) (a1 : FVec Ideal S8x2048x2048 .f32) (a2 a3 : FVec Ideal S256x256 .f32)
    (a4 : FVec Ideal S256x128 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [fn, fn_part1] at h0
  obtain ⟨h0123, h4⟩ := (IntOp.andi_eq_one (c := _) (d := _)).1 h0
  obtain ⟨h012, h3⟩ := (IntOp.andi_eq_one (c := _) (d := _)).1 h0123
  obtain ⟨h01, h2⟩ := (IntOp.andi_eq_one (c := _) (d := _)).1 h012
  obtain ⟨h0', h1⟩ := (IntOp.andi_eq_one (c := _) (d := _)).1 h01
  exact ⟨fun i => entry_real a0 bcast_S_S8x2048x256 i (Host.reduce_andi_all _ _ _ _ ix0 h0' i),
    fun i => entry_real a1 bcast_S_S8x2048x2048 i (Host.reduce_andi_all _ _ _ _ ix0 h1 i),
    fun i => entry_real a2 bcast_S_S256x256 i (Host.reduce_andi_all _ _ _ _ ix0 h2 i),
    fun i => entry_real a3 bcast_S_S256x256 i (Host.reduce_andi_all _ _ _ _ ix0 h3 i),
    fun i => entry_real a4 bcast_S_S256x128 i (Host.reduce_andi_all _ _ _ _ ix0 h4 i)⟩

end Cert.Finite

end
-- ==== Proof.RefRun.lean ====
import proofs.«108354_g83425444758234_cont_9to1c4b_234_15_alg».proof.Proof.RefRead
import Idealize.ShloMosaic.Lib.StableHlo.Run

/-!
# The reference program, run stretch by stretch

The reference is a straight line of thirty array operations: three graph-convolution layers, each
`relu (adj · (h · W))` (two matrix products, a zero constant, its broadcast and an entrywise maximum), and then a
log-softmax down the node axis of the last layer (column maximum, shift, exponential, column sum, logarithm, shift).

Running a straight line from given buffer contents is a left fold: each operation overwrites its own result buffer
with its function of the buffers it reads and leaves every other buffer alone. A left fold over a concatenation is
the composition of the folds over the pieces (`after_append`), so the line is cut into five stretches — one per
layer and two for the log-softmax — and each stretch is described on its own, from ARBITRARY incoming contents:

* the one buffer it is read for ends at the matching stage function of the reference (the functions `val_…` that
  nest the operations one inside the other), provided the buffer the stretch starts from already holds the stage
  function of the stretch before;
* the five argument buffers come out as they went in.

Because the incoming contents are a variable, describing a stretch never looks at what ran before it; the
descriptions are then chained once (`after_ops`), and the library's theorem that a straight line of host operations
terminates with every buffer at the fold (`run_seq`) turns the chain into the statement about executions (`run`).
-/

noncomputable section

namespace Cert.ReferenceIdeal.StagedRun

open Cert.ReferenceIdeal Cert.ReferenceIdeal.Gen Idealize.ShloMosaic Idealize.ShloMosaic.TcCoe Idealize.SL.Sem Idealize.ShloMosaic.StableHlo

variable {F : FTy → Type} [FloatOps F]

/-- Running a line of operations is a left fold of "apply one operation's result" over the list, so running
    `l₁ ++ l₂` is running `l₁` and then running `l₂` from what `l₁` left: the fold over a concatenation
    is the composition of the folds. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => exact ih (op.result V)

/-- First layer, operations 1–5: h·W₁, then adj·(h·W₁), the scalar 0, its broadcast, and the entrywise maximum
    with it: relu (adj · (h · W₁)), written to `main_v2`. -/
abbrev ops1 : List (HloOp τ sig (Elt F)) :=
  [ binary main_arg0 main_arg2 main_v0 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    binary main_arg1 main_v0 main_v1 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x2048x256, .f32⟩) main_call0_v0) (broadcastInDim S8x2048x256 ![] bcast_S_S8x2048x256),
    TRef.binary (TRef.of (T := ⟨S8x2048x256, .f32⟩) main_v1) (TRef.of (T := ⟨S8x2048x256, .f32⟩) main_call0_v0) (TRef.of (T := ⟨S8x2048x256, .f32⟩) main_v2) maximumf ]

/-- Second layer, operations 6–10: relu (adj · (layer₁ · W₂)), read from `main_v2`, written to `main_v5`. -/
abbrev ops2 : List (HloOp τ sig (Elt F)) :=
  [ binary main_v2 main_arg3 main_v3 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    binary main_arg1 main_v3 main_v4 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x2048x256, .f32⟩) main_call1_v0) (broadcastInDim S8x2048x256 ![] bcast_S_S8x2048x256),
    TRef.binary (TRef.of (T := ⟨S8x2048x256, .f32⟩) main_v4) (TRef.of (T := ⟨S8x2048x256, .f32⟩) main_call1_v0) (TRef.of (T := ⟨S8x2048x256, .f32⟩) main_v5) maximumf ]

/-- Third layer, operations 11–15: relu (adj · (layer₂ · W₃)), read from `main_v5`, written to `main_v8` (128 columns). -/
abbrev ops3 : List (HloOp τ sig (Elt F)) :=
  [ binary main_v5 main_arg4 main_v6 ((fun l r => Host.dotGeneral dot_S8x2048x256_S256x128_S8x2048x128_2_0_01_1_n_n none l r) : (⟨S8x2048x256, .f32⟩ : BufTy).Contents (Elt F) → (⟨S256x128, .f32⟩ : BufTy).Contents (Elt F) → (⟨S8x2048x128, .f32⟩ : BufTy).Contents (Elt F)),
    binary main_arg1 main_v6 main_v7 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8x2048x128, .f32⟩) main_call2_v0) (broadcastInDim S8x2048x128 ![] bcast_S_S8x2048x128),
    TRef.binary (TRef.of (T := ⟨S8x2048x128, .f32⟩) main_v7) (TRef.of (T := ⟨S8x2048x128, .f32⟩) main_call2_v0) (TRef.of (T := ⟨S8x2048x128, .f32⟩) main_v8) maximumf ]

/-- The log-softmax down the node axis, first half, operations 16–23, read from `main_v8`, written to
    `main_call3_v5`: the maximum of each column (a max-reduction over the rows starting from the constant with bits
    0xFF800000, which is −∞ in binary32, then the maximum of that with the same constant broadcast), broadcast back
    over the rows and subtracted from the layer's value. -/
abbrev ops4 : List (HloOp τ sig (Elt F)) :=
  [ TRef.nullary (TRef.of (T := ⟨S_, .f32⟩) main_call3_cst) (constant S_ .f32 0xFF800000#32),
    TRef.binary (TRef.of (T := ⟨S8x2048x128, .f32⟩) main_v8) (TRef.of (T := ⟨S_, .f32⟩) main_call3_cst) (TRef.of (T := ⟨S8x128, .f32⟩) main_call3_v0) (fun x v => Host.reduce FloatOps.maximumf x v reducesTo_S8x2048x128_S8x128_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S8x128, .f32⟩) main_call3_v1) (broadcastInDim S8x128 ![] bcast_S_S8x128),
    TRef.binary (TRef.of (T := ⟨S8x128, .f32⟩) main_call3_v1) (TRef.of (T := ⟨S8x128, .f32⟩) main_call3_v0) (TRef.of (T := ⟨S8x128, .f32⟩) main_call3_v2) maximumf,
    TRef.unary (TRef.of (T := ⟨S8x128, .f32⟩) main_call3_v2) (TRef.of (T := ⟨S8x1x128, .f32⟩) main_call3_v3) (broadcastInDim S8x1x128 ![0, 2] bcast_S8x128_S8x1x128_0_2),
    TRef.unary (TRef.of (T := ⟨S8x1x128, .f32⟩) main_call3_v3) (TRef.of (T := ⟨S8x2048x128, .f32⟩) main_call3_v4) (broadcastInDim S8x2048x128 ![0, 1, 2] bcast_S8x1x128_S8x2048x128_0_1_2),
    TRef.binary (TRef.of (T := ⟨S8x2048x128, .f32⟩) main_v8) (TRef.of (T := ⟨S8x2048x128, .f32⟩) main_call3_v4) (TRef.of (T := ⟨S8x2048x128, .f32⟩) main_call3_v5) subf ]

/-- The log-softmax, second half, operations 24–30, read from `main_call3_v5` (the shifted value), written to
    `main_v9`: the exponential, its sum down each column starting from 0, the logarithm of that sum, broadcast back
    over the rows, and subtracted from the shifted value. -/
abbrev ops5 : List (HloOp τ sig (Elt F)) :=
  [ TRef.unary (TRef.of (T := ⟨S8x2048x128, .f32⟩) main_call3_v5) (TRef.of (T := ⟨S8x2048x128, .f32⟩) main_call3_v6) Host.exp,
    TRef.nullary (TRef.of (T := ⟨S_, .f32⟩) main_call3_cst_1) (constant S_ .f32 0x00000000#32),
    TRef.binary (TRef.of (T := ⟨S8x2048x128, .f32⟩) main_call3_v6) (TRef.of (T := ⟨S_, .f32⟩) main_call3_cst_1) (TRef.of (T := ⟨S8x128, .f32⟩) main_call3_v7) (fun x v => Host.reduceAdd x v reducesTo_S8x2048x128_S8x128_d1 h_S_),
    TRef.unary (TRef.of (T := ⟨S8x128, .f32⟩) main_call3_v7) (TRef.of (T := ⟨S8x1x128, .f32⟩) main_call3_v8) (broadcastInDim S8x1x128 ![0, 2] bcast_S8x128_S8x1x128_0_2),
    TRef.unary (TRef.of (T := ⟨S8x1x128, .f32⟩) main_call3_v8) (TRef.of (T := ⟨S8x1x128, .f32⟩) main_call3_v9) Host.log,
    TRef.unary (TRef.of (T := ⟨S8x1x128, .f32⟩) main_call3_v9) (TRef.of (T := ⟨S8x2048x128, .f32⟩) main_call3_v10) (broadcastInDim S8x2048x128 ![0, 1, 2] bcast_S8x1x128_S8x2048x128_0_1_2),
    TRef.binary (TRef.of (T := ⟨S8x2048x128, .f32⟩) main_call3_v5) (TRef.of (T := ⟨S8x2048x128, .f32⟩) main_call3_v10) (TRef.of (T := ⟨S8x2048x128, .f32⟩) main_v9) subf ]

/-- The whole program: the three layers, then the two halves of the log-softmax. -/
abbrev ops : List (HloOp τ sig (Elt F)) := ops1 ++ ops2 ++ ops3 ++ ops4 ++ ops5

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- Moving a value to a buffer's own type and back is the identity: the two moves are transports along an
    equation between the two types and along its inverse, and they compose to the transport along `rfl`. -/
theorem ofBuf_toBuf {sig' : RefSig} {T : BufTy} {Val : EltTy → Type} (x : TRef sig' T) (v : T.Contents Val) :
    x.ofBuf (x.toBuf v) = v :=
  (cast_cast _ _ v).trans (cast_eq _ v)

/-! ## What each stretch leaves, from any incoming contents

Each statement is over an arbitrary valuation `W` of the buffers as the stretch finds them, so that nothing
that ran before the stretch is ever looked into: a stretch is a function of the few buffers it reads. -/

/-- Two valuations hold the same contents at the five argument buffers (the node features, the adjacency and the
    three weight matrices). -/
def SameArgs (V W : Valuation τ sig (Elt F)) : Prop :=
  V (Proc.devRef (τ := τ) .tc main_arg0) = W (Proc.devRef (τ := τ) .tc main_arg0)
  ∧ V (Proc.devRef (τ := τ) .tc main_arg1) = W (Proc.devRef (τ := τ) .tc main_arg1)
  ∧ V (Proc.devRef (τ := τ) .tc main_arg2) = W (Proc.devRef (τ := τ) .tc main_arg2)
  ∧ V (Proc.devRef (τ := τ) .tc main_arg3) = W (Proc.devRef (τ := τ) .tc main_arg3)
  ∧ V (Proc.devRef (τ := τ) .tc main_arg4) = W (Proc.devRef (τ := τ) .tc main_arg4)

theorem SameArgs.trans {U V W : Valuation τ sig (Elt F)} (h : SameArgs U V) (k : SameArgs V W) : SameArgs U W :=
  ⟨h.1.trans k.1, h.2.1.trans k.2.1, h.2.2.1.trans k.2.2.1, h.2.2.2.1.trans k.2.2.2.1, h.2.2.2.2.trans k.2.2.2.2⟩

/-- No operation of the first layer writes an argument buffer. -/
theorem ops1_args (W : Valuation τ sig (Elt F)) : SameArgs (after ops1 W) W :=
  ⟨by after_results, by after_results, by after_results, by after_results, by after_results⟩

/-- Nor does any of the second layer. -/
theorem ops2_args (W : Valuation τ sig (Elt F)) : SameArgs (after ops2 W) W :=
  ⟨by after_results, by after_results, by after_results, by after_results, by after_results⟩

/-- Nor of the third. -/
theorem ops3_args (W : Valuation τ sig (Elt F)) : SameArgs (after ops3 W) W :=
  ⟨by after_results, by after_results, by after_results, by after_results, by after_results⟩

/-- Nor of the first half of the log-softmax. -/
theorem ops4_args (W : Valuation τ sig (Elt F)) : SameArgs (after ops4 W) W :=
  ⟨by after_results, by after_results, by after_results, by after_results, by after_results⟩

/-- Nor of its second half. -/
theorem ops5_args (W : Valuation τ sig (Elt F)) : SameArgs (after ops5 W) W :=
  ⟨by after_results, by after_results, by after_results, by after_results, by after_results⟩

/-- The first layer's result: the entrywise maximum with 0 of adj · (features · W₁), the two products and the
    broadcast zero being exactly the operations the stage function `val_main_v2` nests. -/
theorem ops1_v2 (W : Valuation τ sig (Elt F)) :
    after ops1 W (Proc.devRef (τ := τ) .tc main_v2)
      = ReadP.val_main_v2 (F := F) (W (Proc.devRef (τ := τ) .tc main_arg0)) (W (Proc.devRef (τ := τ) .tc main_arg1)) (W (Proc.devRef (τ := τ) .tc main_arg2)) := by
  after_results
  rfl

/-- The second layer reads the first layer's result, the adjacency and the second weight matrix; once the incoming
    contents of those three buffers are named, its result is the next stage function, which is the same three
    operations applied to the previous stage function. -/
theorem ops2_v5 (W : Valuation τ sig (Elt F))
    (x0 : (⟨S8x2048x256, .f32⟩ : BufTy).Contents (Elt F)) (x1 : (⟨S8x2048x2048, .f32⟩ : BufTy).Contents (Elt F))
    (x2 x3 : (⟨S256x256, .f32⟩ : BufTy).Contents (Elt F))
    (h2 : W (Proc.devRef (τ := τ) .tc main_v2) = ReadP.val_main_v2 (F := F) x0 x1 x2)
    (h1 : W (Proc.devRef (τ := τ) .tc main_arg1) = x1) (h3 : W (Proc.devRef (τ := τ) .tc main_arg3) = x3) :
    after ops2 W (Proc.devRef (τ := τ) .tc main_v5) = ReadP.val_main_v5 (F := F) x0 x1 x2 x3 := by
  after_results
  rw [h2, h1, h3]
  rfl

/-- The third layer likewise, from the second layer's result, the adjacency and the third weight matrix. -/
theorem ops3_v8 (W : Valuation τ sig (Elt F))
    (x0 : (⟨S8x2048x256, .f32⟩ : BufTy).Contents (Elt F)) (x1 : (⟨S8x2048x2048, .f32⟩ : BufTy).Contents (Elt F))
    (x2 x3 : (⟨S256x256, .f32⟩ : BufTy).Contents (Elt F)) (x4 : (⟨S256x128, .f32⟩ : BufTy).Contents (Elt F))
    (h5 : W (Proc.devRef (τ := τ) .tc main_v5) = ReadP.val_main_v5 (F := F) x0 x1 x2 x3)
    (h1 : W (Proc.devRef (τ := τ) .tc main_arg1) = x1) (h4 : W (Proc.devRef (τ := τ) .tc main_arg4) = x4) :
    after ops3 W (Proc.devRef (τ := τ) .tc main_v8) = ReadP.val_main_v8 (F := F) x0 x1 x2 x3 x4 := by
  after_results
  rw [h5, h1, h4]
  rfl

/-- The first half of the log-softmax reads only the third layer's buffer (for the column maximum, and again for
    the subtraction). Once that buffer's incoming contents are named as the third stage function, the shifted value
    is the stage function `val_main_call3_v5`, which nests exactly these eight operations over it.
    The values handed from one operation to the next go through a buffer and come back: those round trips are
    removed first (`ofBuf_toBuf`), so that the row-major fold which is the max-reduction is met as the same
    term on both sides and is never opened. -/
theorem ops4_shift (W : Valuation τ sig (Elt F))
    (x0 : (⟨S8x2048x256, .f32⟩ : BufTy).Contents (Elt F)) (x1 : (⟨S8x2048x2048, .f32⟩ : BufTy).Contents (Elt F))
    (x2 x3 : (⟨S256x256, .f32⟩ : BufTy).Contents (Elt F)) (x4 : (⟨S256x128, .f32⟩ : BufTy).Contents (Elt F))
    (h8 : W (Proc.devRef (τ := τ) .tc main_v8) = ReadP.val_main_v8 (F := F) x0 x1 x2 x3 x4) :
    after ops4 W (Proc.devRef (τ := τ) .tc main_call3_v5) = ReadP.val_main_call3_v5 (F := F) x0 x1 x2 x3 x4 := by
  after_results
  repeat rw [ofBuf_toBuf]
  rw [h8]
  rfl

/-- The second half reads only the shifted value (for the exponential, and again for the final subtraction). -/
theorem ops5_v9 (W : Valuation τ sig (Elt F))
    (x0 : (⟨S8x2048x256, .f32⟩ : BufTy).Contents (Elt F)) (x1 : (⟨S8x2048x2048, .f32⟩ : BufTy).Contents (Elt F))
    (x2 x3 : (⟨S256x256, .f32⟩ : BufTy).Contents (Elt F)) (x4 : (⟨S256x128, .f32⟩ : BufTy).Contents (Elt F))
    (hs : W (Proc.devRef (τ := τ) .tc main_call3_v5) = ReadP.val_main_call3_v5 (F := F) x0 x1 x2 x3 x4) :
    after ops5 W (Proc.devRef (τ := τ) .tc main_v9) = ReadP.val_main_v9 (F := F) x0 x1 x2 x3 x4 := by
  after_results
  repeat rw [ofBuf_toBuf]
  rw [hs]
  rfl

/-! ## The five stretches chained -/

/-- The whole line from any incoming contents `W`: it is the first layer, then the second from what the first
    left, and so on (the fold over the concatenation is the composition of the folds). Each stretch finds in the
    buffer it reads the stage function the stretch before left there, and finds the arguments as `W` had them,
    since no stretch writes an argument. So the last buffer ends at the last stage function of `W`'s five
    argument arrays, and the arguments end as `W` had them. -/
theorem after_ops (W : Valuation τ sig (Elt F)) :
    after ops W (Proc.devRef (τ := τ) .tc main_v9)
        = ReadP.val_main_v9 (F := F) (W (Proc.devRef (τ := τ) .tc main_arg0)) (W (Proc.devRef (τ := τ) .tc main_arg1))
            (W (Proc.devRef (τ := τ) .tc main_arg2)) (W (Proc.devRef (τ := τ) .tc main_arg3)) (W (Proc.devRef (τ := τ) .tc main_arg4))
      ∧ SameArgs (after ops W) W := by
  have e : after (ops (F := F)) W = after ops5 (after ops4 (after ops3 (after ops2 (after ops1 W)))) := by
    show after ((((ops1 ++ ops2) ++ ops3) ++ ops4) ++ ops5) W = _
    rw [after_append, after_append, after_append, after_append]
  have a1 := ops1_args W
  have a2 := (ops2_args (after ops1 W)).trans a1
  have a3 := (ops3_args (after ops2 (after ops1 W))).trans a2
  have a4 := (ops4_args (after ops3 (after ops2 (after ops1 W)))).trans a3
  have a5 := (ops5_args (after ops4 (after ops3 (after ops2 (after ops1 W))))).trans a4
  have v2 := ops1_v2 W
  have v5 := ops2_v5 (after ops1 W) _ _ _ _ v2 a1.2.1 a1.2.2.2.1
  have v8 := ops3_v8 (after ops2 (after ops1 W)) _ _ _ _ _ v5 a2.2.1 a2.2.2.2.2
  have vs := ops4_shift (after ops3 (after ops2 (after ops1 W))) _ _ _ _ _ v8
  have v9 := ops5_v9 (after ops4 (after ops3 (after ops2 (after ops1 W)))) _ _ _ _ _ vs
  rw [e]
  exact ⟨v9, a5⟩

/-! ## The run -/

theorem ops1_sub : (ops1 : List (HloOp τ sig (Elt F))).Forall fun op => op.bufs ⊆ tcRefs τ sig :=
  ⟨binary_bufs_sub .., binary_bufs_sub .., nullary_bufs_sub .., unary_bufs_sub .., binary_bufs_sub ..⟩
theorem ops2_sub : (ops2 : List (HloOp τ sig (Elt F))).Forall fun op => op.bufs ⊆ tcRefs τ sig :=
  ⟨binary_bufs_sub .., binary_bufs_sub .., nullary_bufs_sub .., unary_bufs_sub .., binary_bufs_sub ..⟩
theorem ops3_sub : (ops3 : List (HloOp τ sig (Elt F))).Forall fun op => op.bufs ⊆ tcRefs τ sig :=
  ⟨binary_bufs_sub .., binary_bufs_sub .., nullary_bufs_sub .., unary_bufs_sub .., binary_bufs_sub ..⟩
theorem ops4_sub : (ops4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub ..⟩
theorem ops5_sub : (ops5 : List (HloOp τ sig (Elt F))).Forall fun op => op.bufs ⊆ tcRefs τ sig :=
  ⟨unary_bufs_sub .., nullary_bufs_sub .., binary_bufs_sub .., unary_bufs_sub .., unary_bufs_sub .., unary_bufs_sub .., binary_bufs_sub ..⟩

/-- Every operation touches TensorCore buffers only: a property of each element, so it holds of a concatenation
    when it holds of the pieces. -/
theorem ops_sub : (ops : List (HloOp τ sig (Elt F))).Forall fun op => op.bufs ⊆ tcRefs τ sig :=
  List.forall_append.mpr ⟨List.forall_append.mpr ⟨List.forall_append.mpr ⟨List.forall_append.mpr ⟨ops1_sub, ops2_sub⟩, ops3_sub⟩, ops4_sub⟩, ops5_sub⟩

/-- On every device, for any float values, from any memory with zero counters: every weakly fair execution of the
    reference program terminates; its result buffer then holds the last stage function of the five argument
    arrays as the launch dealt them, and the argument arrays are unchanged. The run itself is the library's
    theorem for a straight line of host operations (each buffer ends at the fold of the operations' results over
    the launch contents); `after_ops` reads that fold. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = Cert.ReferenceIdeal.ReadP.val_main_v9 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      have k := after_ops (F := F) (launchContents m c)
      ⟨(h c main_v9).trans k.1,
       (h c main_arg0).trans k.2.1,
       (h c main_arg1).trans k.2.2.1,
       (h c main_arg2).trans k.2.2.2.1,
       (h c main_arg3).trans k.2.2.2.2.1,
       (h c main_arg4).trans k.2.2.2.2.2⟩)
    (run_seq scopedRefs_eq scopedSems_eq defs main (fun _ => ops) main_eq (fun _ => ops_sub) m ρ)

end Cert.ReferenceIdeal.StagedRun

end
-- ==== Proof.RefValue.lean ====
/-
  The reference program, read entry by entry at the exact (extended-real) arithmetic, computes the specification.

  For graph b, node n and label e the reference computes, three times over, s = h · W (a sum over the feature
  coordinate), a = A_b · s (a sum over the node coordinate, inside graph b) and h' = max a 0; then, over the nodes of each
  column (b, ·, e) of the last h', the maximum M from −∞, the shifted values d = h' − M, the sum S = 0 + Σ exp d, and the
  result d − log S. Each of these array operations is read at one index from its operands at indices; the lemmas below
  compose those readings, layer by layer, into the specification's closed form: the log-softmax, over the nodes, of the
  column of hidden values.
-/
import proofs.«108354_g83425444758234_cont_9to1c4b_234_15_alg».proof.Proof.RefRead
import proofs.«108354_g83425444758234_cont_9to1c4b_234_15_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

/-! ## Indices named by their coordinates -/

/-- An index into a rank-3 array whose coordinates are a, b, c is the index (a, b, c). -/
theorem idx3_of_coords {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

/-- An index into a matrix whose coordinates are a, b is the index (a, b). -/
theorem idx2_of_coords {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-! ## One layer

A layer is three array operations. With H the layer's input [8, 2048, D], W its weights [D, E] and A the adjacency
[8, 2048, 2048]:
  s (b, n, e) = Σ_d H (b, n, d) · W (d, e)        the feature coordinate d is contracted;
  a (b, n, e) = Σ_k A (b, n, k) · s (b, k, e)      the node coordinate k is contracted, graph by graph;
  h' (b, n, e) = max (a (b, n, e)) 0.
Entry (b, n, e) of h' depends on row n of graph b's adjacency block, on all of graph b's rows of H and on column e of W.
Putting the first sum inside the second gives max (A_b · (H_b · W)) 0 at (n, e), which is the specification's layer. -/

theorem layer_read {D E : Nat} (adj : (⟨3, ![8, 2048, 2048]⟩ : Shape).Idx → EReal)
    (H : (⟨3, ![8, 2048, D]⟩ : Shape).Idx → EReal) (W : (⟨2, ![D, E]⟩ : Shape).Idx → EReal)
    (s a h' : (⟨3, ![8, 2048, E]⟩ : Shape).Idx → EReal)
    (hs : ∀ b n e, s (ix3 b n e) = ∑ d : Fin D, H (ix3 b n d) * W (ix2 d e))
    (ha : ∀ b n e, a (ix3 b n e) = ∑ k : Fin 2048, adj (ix3 b n k) * s (ix3 b k e))
    (hh : ∀ i, h' i = max (a i) 0) (b : Fin 8) (n : Fin 2048) (e : Fin E) :
    h' (ix3 b n e)
      = Cert.Spec.layer (fun p k => adj (ix3 b p k)) (fun p d => H (ix3 b p d)) (fun d c => W (ix2 d c)) n e := by
  rw [hh, ha]
  unfold Cert.Spec.layer Cert.Spec.mm
  refine congrArg (fun v => max v 0) (Finset.sum_congr rfl fun k _ => ?_)
  rw [hs]

/-! ## The three layers of the reference

Each instance below supplies the three readings the lemma above asks for, from the reference's stages: the two products
read as sums over the contracted coordinate (their operand indices, given stage by stage as functions of the result
index and the summation coordinate, are named by coordinates), and the maximum against the broadcast constant whose
bit pattern is that of 0. -/

/-- First layer: input the features x0, weights x2. -/
theorem layer1_apply (x0 : (⟨S8x2048x256, .f32⟩ : BufTy).Contents (Elt Ideal)) (x1 : (⟨S8x2048x2048, .f32⟩ : BufTy).Contents (Elt Ideal))
    (x2 : (⟨S256x256, .f32⟩ : BufTy).Contents (Elt Ideal)) (b : Fin 8) (n : Fin 2048) (e : Fin 256) :
    val_main_v2 (F := Ideal) x0 x1 x2 (ix3 b n e)
      = Cert.Spec.layer (fun p k => x1 (ix3 b p k)) (fun p d => x0 (ix3 b p d)) (fun d c => x2 (ix2 d c)) n e :=
  layer_read (D := 256) (E := 256) x1 x0 x2 (val_main_v0 (F := Ideal) x0 x2) (val_main_v1 (F := Ideal) x0 x1 x2)
    (val_main_v2 (F := Ideal) x0 x1 x2)
    (fun b n e => by
      -- s = x0 · x2: the sum runs over the feature coordinate d
      rw [val_main_v0_apply]
      refine Finset.sum_congr rfl fun d _ => ?_
      rw [idx3_of_coords (lidx_main_v0 (ix3 b n e) d) b n d rfl rfl rfl,
        idx2_of_coords (ridx_main_v0 (ix3 b n e) d) d e rfl rfl])
    (fun b n e => by
      -- a = x1 · s within graph b: the sum runs over the node coordinate k
      rw [val_main_v1_apply]
      refine Finset.sum_congr rfl fun k _ => ?_
      rw [idx3_of_coords (lidx_main_v1 (ix3 b n e) k) b n k rfl rfl rfl,
        idx3_of_coords (ridx_main_v1 (ix3 b n e) k) b k e rfl rfl rfl])
    (fun i => by
      rw [val_main_v2_apply, val_main_call0_v0_apply, val_main_call0_cst_apply]
      exact congrArg (max _) Ideal.ofBits_zero_f32)
    b n e

/-- Second layer: input the first layer's result, weights x3. -/
theorem layer2_apply (x0 : (⟨S8x2048x256, .f32⟩ : BufTy).Contents (Elt Ideal)) (x1 : (⟨S8x2048x2048, .f32⟩ : BufTy).Contents (Elt Ideal))
    (x2 x3 : (⟨S256x256, .f32⟩ : BufTy).Contents (Elt Ideal)) (b : Fin 8) (n : Fin 2048) (e : Fin 256) :
    val_main_v5 (F := Ideal) x0 x1 x2 x3 (ix3 b n e)
      = Cert.Spec.layer (fun p k => x1 (ix3 b p k)) (fun p d => val_main_v2 (F := Ideal) x0 x1 x2 (ix3 b p d))
          (fun d c => x3 (ix2 d c)) n e :=
  layer_read (D := 256) (E := 256) x1 (val_main_v2 (F := Ideal) x0 x1 x2) x3 (val_main_v3 (F := Ideal) x0 x1 x2 x3)
    (val_main_v4 (F := Ideal) x0 x1 x2 x3) (val_main_v5 (F := Ideal) x0 x1 x2 x3)
    (fun b n e => by
      -- s = h₁ · x3: the sum runs over the feature coordinate d
      rw [val_main_v3_apply]
      refine Finset.sum_congr rfl fun d _ => ?_
      rw [idx3_of_coords (lidx_main_v3 (ix3 b n e) d) b n d rfl rfl rfl,
        idx2_of_coords (ridx_main_v3 (ix3 b n e) d) d e rfl rfl])
    (fun b n e => by
      -- a = x1 · s within graph b: the sum runs over the node coordinate k
      rw [val_main_v4_apply]
      refine Finset.sum_congr rfl fun k _ => ?_
      rw [idx3_of_coords (lidx_main_v4 (ix3 b n e) k) b n k rfl rfl rfl,
        idx3_of_coords (ridx_main_v4 (ix3 b n e) k) b k e rfl rfl rfl])
    (fun i => by
      rw [val_main_v5_apply, val_main_call1_v0_apply, val_main_call1_cst_apply]
      exact congrArg (max _) Ideal.ofBits_zero_f32)
    b n e

/-- Third layer: input the second layer's result, weights x4, which take the 256 features to the 128 labels. -/
theorem layer3_apply (x0 : (⟨S8x2048x256, .f32⟩ : BufTy).Contents (Elt Ideal)) (x1 : (⟨S8x2048x2048, .f32⟩ : BufTy).Contents (Elt Ideal))
    (x2 x3 : (⟨S256x256, .f32⟩ : BufTy).Contents (Elt Ideal)) (x4 : (⟨S256x128, .f32⟩ : BufTy).Contents (Elt Ideal)) (b : Fin 8) (n : Fin 2048) (e : Fin 128) :
    val_main_v8 (F := Ideal) x0 x1 x2 x3 x4 (ix3 b n e)
      = Cert.Spec.layer (fun p k => x1 (ix3 b p k)) (fun p d => val_main_v5 (F := Ideal) x0 x1 x2 x3 (ix3 b p d))
          (fun d c => x4 (ix2 d c)) n e :=
  layer_read (D := 256) (E := 128) x1 (val_main_v5 (F := Ideal) x0 x1 x2 x3) x4 (val_main_v6 (F := Ideal) x0 x1 x2 x3 x4)
    (val_main_v7 (F := Ideal) x0 x1 x2 x3 x4) (val_main_v8 (F := Ideal) x0 x1 x2 x3 x4)
    (fun b n e => by
      -- s = h₂ · x4: the sum runs over the feature coordinate d
      rw [val_main_v6_apply]
      refine Finset.sum_congr rfl fun d _ => ?_
      rw [idx3_of_coords (lidx_main_v6 (ix3 b n e) d) b n d rfl rfl rfl,
        idx2_of_coords (ridx_main_v6 (ix3 b n e) d) d e rfl rfl])
    (fun b n e => by
      -- a = x1 · s within graph b: the sum runs over the node coordinate k
      rw [val_main_v7_apply]
      refine Finset.sum_congr rfl fun k _ => ?_
      rw [idx3_of_coords (lidx_main_v7 (ix3 b n e) k) b n k rfl rfl rfl,
        idx3_of_coords (ridx_main_v7 (ix3 b n e) k) b k e rfl rfl rfl])
    (fun i => by
      rw [val_main_v8_apply, val_main_call2_v0_apply, val_main_call2_cst_apply]
      exact congrArg (max _) Ideal.ofBits_zero_f32)
    b n e

/-- The hidden values. Entry (b, n, e) of the third layer's result is entry n of column e of graph b's hidden values as
    the specification builds them: each layer's input, as a matrix for graph b, is the previous layer's result. -/
theorem hidden_apply (x0 : (⟨S8x2048x256, .f32⟩ : BufTy).Contents (Elt Ideal)) (x1 : (⟨S8x2048x2048, .f32⟩ : BufTy).Contents (Elt Ideal))
    (x2 x3 : (⟨S256x256, .f32⟩ : BufTy).Contents (Elt Ideal)) (x4 : (⟨S256x128, .f32⟩ : BufTy).Contents (Elt Ideal)) (b : Fin 8) (n : Fin 2048) (e : Fin 128) :
    val_main_v8 (F := Ideal) x0 x1 x2 x3 x4 (ix3 b n e) = Cert.Spec.column x0 x1 x2 x3 x4 b e n := by
  rw [layer3_apply]
  unfold Cert.Spec.column Cert.Spec.hidden
  have e2 : (fun p d => val_main_v5 (F := Ideal) x0 x1 x2 x3 (ix3 b p d))
      = Cert.Spec.layer (fun p k => x1 (ix3 b p k)) (fun p d => val_main_v2 (F := Ideal) x0 x1 x2 (ix3 b p d))
          (fun d c => x3 (ix2 d c)) :=
    funext fun p => funext fun d => layer2_apply x0 x1 x2 x3 b p d
  have e1 : (fun p d => val_main_v2 (F := Ideal) x0 x1 x2 (ix3 b p d))
      = Cert.Spec.layer (fun p k => x1 (ix3 b p k)) (fun p d => x0 (ix3 b p d)) (fun d c => x2 (ix2 d c)) :=
    funext fun p => funext fun d => layer1_apply x0 x1 x2 b p d
  rw [e2, e1]

/-! ## The column maximum

The reference takes, for graph b and label e, the maximum over the 2048 nodes of the hidden values, starting from the
constant whose bit pattern is that of −∞, and then once more the maximum of that with −∞, which changes nothing. -/

/-- The f32 pattern with sign 1, all exponent bits 1 and fraction 0 reads as −∞, the least extended real. -/
theorem ofBits_neg_inf : Ideal.ofBits .f32 0xFF800000#32 = ⊥ := by simp [Ideal.ofBits, Ideal.ieee]

/-- Dropping the node axis of [8, 2048, 128] leaves [8, 128]. -/
theorem nodeAxis : S8x2048x128.Reduces [1] S8x128 := by decide

/-- A maximum-reduction over the node axis, at (b, e): the fold of max, from the initial value, over the entries
    (b, n, e), n running over the nodes. The source index over (b, e) with n put on the dropped axis is (b, n, e). -/
theorem nodeMax_read (x : S8x2048x128.Idx → EReal) (init : S_.Idx → EReal) (b : Fin 8) (e : Fin 128) :
    Host.reduce (FloatOps.maximumf (F := Ideal) (φ := .f32)) x init reducesTo_S8x2048x128_S8x128_d1 h_S_ (ix2 b e)
      = (Finset.univ : Finset (Fin 2048)).fold max (init (Shape.Idx.first h_S_)) (fun n => x (ix3 b n e)) := by
  rw [Host.reduce_eq_fold_single (FloatOps.maximumf (F := Ideal) (φ := .f32)) x init reducesTo_S8x2048x128_S8x128_d1
    nodeAxis h_S_ (ix2 b e)]
  exact Finset.fold_congr fun n _ => congrArg x (idx3_of_coords (nodeAxis.lift (ix2 b e) n) b n e rfl rfl rfl)

/-- The reference's maximum at (b, e) is the specification's maximum of column e of graph b's hidden values. -/
theorem colMax_apply (x0 : (⟨S8x2048x256, .f32⟩ : BufTy).Contents (Elt Ideal)) (x1 : (⟨S8x2048x2048, .f32⟩ : BufTy).Contents (Elt Ideal))
    (x2 x3 : (⟨S256x256, .f32⟩ : BufTy).Contents (Elt Ideal)) (x4 : (⟨S256x128, .f32⟩ : BufTy).Contents (Elt Ideal)) (b : Fin 8) (e : Fin 128) :
    val_main_call3_v2 (F := Ideal) x0 x1 x2 x3 x4 (ix2 b e)
      = Cert.Spec.colMax (Cert.Spec.column x0 x1 x2 x3 x4 b e) := by
  rw [val_main_call3_v2_apply, val_main_call3_v1_apply, val_main_call3_cst_0_apply]
  unfold val_main_call3_v0
  rw [nodeMax_read, val_main_call3_cst_apply]
  -- both constants are −∞; max (−∞) M = M
  show max (Ideal.ofBits .f32 0xFF800000#32) (Finset.univ.fold max (Ideal.ofBits .f32 0xFF800000#32) _) = _
  rw [ofBits_neg_inf, bot_sup_eq]
  unfold Cert.Spec.colMax
  exact Finset.fold_congr fun n _ => hidden_apply x0 x1 x2 x3 x4 b n e

/-! ## The shifted values, the sum of their exponentials, and the result -/

/-- d (b, n, e) = h (b, n, e) − M (b, e): the maximum reaches entry (b, n, e) through two broadcasts, [8, 128] to
    [8, 1, 128] to [8, 2048, 128], which read it at (b, e) whatever n is. -/
theorem shifted_apply (x0 : (⟨S8x2048x256, .f32⟩ : BufTy).Contents (Elt Ideal)) (x1 : (⟨S8x2048x2048, .f32⟩ : BufTy).Contents (Elt Ideal))
    (x2 x3 : (⟨S256x256, .f32⟩ : BufTy).Contents (Elt Ideal)) (x4 : (⟨S256x128, .f32⟩ : BufTy).Contents (Elt Ideal)) (b : Fin 8) (n : Fin 2048) (e : Fin 128) :
    val_main_call3_v5 (F := Ideal) x0 x1 x2 x3 x4 (ix3 b n e)
      = Cert.Spec.column x0 x1 x2 x3 x4 b e n - Cert.Spec.colMax (Cert.Spec.column x0 x1 x2 x3 x4 b e) := by
  rw [val_main_call3_v5_apply, val_main_call3_v4_apply, val_main_call3_v3_apply,
    idx2_of_coords (idx_main_call3_v3 (idx_main_call3_v4 (ix3 b n e))) b e rfl rfl, colMax_apply, hidden_apply]
  rfl

/-- S (b, e) = 0 + Σ_n exp (d (b, n, e)): the sum runs over the node coordinate, from the constant whose bit pattern
    is that of 0. -/
theorem sumExp_apply (x0 : (⟨S8x2048x256, .f32⟩ : BufTy).Contents (Elt Ideal)) (x1 : (⟨S8x2048x2048, .f32⟩ : BufTy).Contents (Elt Ideal))
    (x2 x3 : (⟨S256x256, .f32⟩ : BufTy).Contents (Elt Ideal)) (x4 : (⟨S256x128, .f32⟩ : BufTy).Contents (Elt Ideal)) (b : Fin 8) (e : Fin 128) :
    val_main_call3_v7 (F := Ideal) x0 x1 x2 x3 x4 (ix2 b e)
      = 0 + ∑ i : Fin 2048, Ideal.exp (Cert.Spec.column x0 x1 x2 x3 x4 b e i
          - Cert.Spec.colMax (Cert.Spec.column x0 x1 x2 x3 x4 b e)) := by
  rw [val_main_call3_v7_apply, val_main_call3_cst_1_apply]
  refine congrArg₂ (· + ·) Ideal.ofBits_zero_f32 (Finset.sum_congr rfl fun i _ => ?_)
  rw [val_main_call3_v6_apply, idx3_of_coords (idx_main_call3_v7 (ix2 b e) i) b i e rfl rfl rfl, shifted_apply]
  rfl

/-- The reference's result is the specification: entry (b, n, e) is d (b, n, e) − log (S (b, e)), the logarithm reaching
    the entry through the same two broadcasts as the maximum. -/
theorem val_eq_out (x0 : (⟨S8x2048x256, .f32⟩ : BufTy).Contents (Elt Ideal)) (x1 : (⟨S8x2048x2048, .f32⟩ : BufTy).Contents (Elt Ideal))
    (x2 x3 : (⟨S256x256, .f32⟩ : BufTy).Contents (Elt Ideal)) (x4 : (⟨S256x128, .f32⟩ : BufTy).Contents (Elt Ideal)) :
    ReadP.val_main_v9 (F := Ideal) x0 x1 x2 x3 x4 = Cert.Spec.out x0 x1 x2 x3 x4 := by
  funext i
  obtain ⟨b, n, e, rfl⟩ : ∃ b n e, i = ix3 b n e := ⟨i 0, i 1, i 2, eq_ix3 i⟩
  rw [Cert.Spec.out_apply, val_main_v9_apply, val_main_call3_v10_apply, val_main_call3_v9_apply, val_main_call3_v8_apply,
    idx2_of_coords (idx_main_call3_v8 (idx_main_call3_v10 (ix3 b n e))) b e rfl rfl, sumExp_apply, shifted_apply]
  rfl

end Cert.ReferenceIdeal.RefValue

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.KernelSlab.lean ====
/-
  Two facts about the shapes this kernel's layers are built from, on the extended reals.

  A layer is computed eight times over, once per slab of 256 consecutive rows of the adjacency matrix: the rows
  off, …, off + 255 are cut out of the [2048, 2048] matrix, multiplied into the [2048, E] support matrix (a sum over
  all 2048 nodes), and clamped below at 0. Entry (r, c) of such a slab therefore depends on row off + r of the
  adjacency and on column c of the support, and on nothing else.

  The eight slabs are then laid end to end along the row axis. Row n of the result lies in slab n / 256, at row
  n % 256 of that slab; since n = 256 (n / 256) + n % 256, a family of slabs whose slab i holds rows
  256 i, …, 256 i + 255 of some matrix H gives back exactly H.
-/
import proofs.«108354_g83425444758234_cont_9to1c4b_234_15_alg».proof.Proof.Gen.KernelIdeal.Skeleton
import proofs.«108354_g83425444758234_cont_9to1c4b_234_15_alg».proof.Proof.Spec
import proofs.«108354_g83425444758234_cont_9to1c4b_234_15_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Layers

open Idealize.ShloMosaic Idealize.SL.Sem Idealize.ShloMosaic.ValueIdx
open Cert.KernelIdeal Cert.KernelIdeal.Gen

/-! ## One slab: rows off … off + 255 of the adjacency against the whole support, clamped at 0 -/

/-- Row off + r of a 2048-row matrix, for r < 256, when the 256 rows from off fit inside it. -/
abbrev slabRow (off : Nat) (hs : S2048x2048.Slices ![off, 0] S256x2048) (r : Fin 256) : Fin 2048 :=
  ⟨off + r.val, Nat.lt_of_lt_of_le (Nat.add_lt_add_left r.isLt off) (hs.2 0)⟩

/-- A slab of width 256. The product into the zero accumulator is the plain sum over the 2048 contracted nodes; the
    slice reads the adjacency at row off + r; the broadcast zero word is the number 0; and the vector maximum is
    taken entry by entry. -/
theorem slab256_apply (A : FVec Ideal S2048x2048 .f32) (S : FVec Ideal S2048x256 .f32) (off : Nat)
    (hs : S2048x2048.Slices ![off, 0] S256x2048) (r : Fin 256) (c : Fin 256) :
    maximumf (matmul dot_S256x2048_S2048x256_S256x256_1_0_0_1_n_n none (extractStridedSlice S256x2048 ![off, 0] A hs) S
        (constant (F := Ideal) S256x256 .f32 0x00000000#32)) (broadcast S256x256 (Scalar.ofBits .f32 0x00000000#32)) (ix2 r c)
      = max (∑ k : Fin 2048, A (ix2 (slabRow off hs r) k) * S (ix2 k c)) 0 := by
  -- entry by entry: max (product at (r, c)) (the zero word)
  show max (FloatOps.matmul (DotDims.plain 256 2048 256) none (extractStridedSlice S256x2048 ![off, 0] A hs) S
      (constant (F := Ideal) ⟨2, ![256, 256]⟩ .f32 0x00000000#32) (ix2 r c)) (Ideal.ofBits .f32 0x00000000#32) = _
  rw [Cert.LibPlainDot.matmul_zero_apply, Ideal.ofBits_zero_f32]
  -- each term of the sum reads the slice at (r, k), which is the adjacency at (off + r, k)
  exact congrArg (fun s : EReal => max s 0) (Finset.sum_congr rfl fun k _ =>
    congrArg (fun a : EReal => a * S (ix2 k c)) (slice2_axis0_eq off A hs r k))

/-- The same slab of width 128 (the last layer's). -/
theorem slab128_apply (A : FVec Ideal S2048x2048 .f32) (S : FVec Ideal S2048x128 .f32) (off : Nat)
    (hs : S2048x2048.Slices ![off, 0] S256x2048) (r : Fin 256) (c : Fin 128) :
    maximumf (matmul dot_S256x2048_S2048x128_S256x128_1_0_0_1_n_n none (extractStridedSlice S256x2048 ![off, 0] A hs) S
        (constant (F := Ideal) S256x128 .f32 0x00000000#32)) (broadcast S256x128 (Scalar.ofBits .f32 0x00000000#32)) (ix2 r c)
      = max (∑ k : Fin 2048, A (ix2 (slabRow off hs r) k) * S (ix2 k c)) 0 := by
  show max (FloatOps.matmul (DotDims.plain 256 2048 128) none (extractStridedSlice S256x2048 ![off, 0] A hs) S
      (constant (F := Ideal) ⟨2, ![256, 128]⟩ .f32 0x00000000#32) (ix2 r c)) (Ideal.ofBits .f32 0x00000000#32) = _
  rw [Cert.LibPlainDot.matmul_zero_apply, Ideal.ofBits_zero_f32]
  exact congrArg (fun s : EReal => max s 0) (Finset.sum_congr rfl fun k _ =>
    congrArg (fun a : EReal => a * S (ix2 k c)) (slice2_axis0_eq off A hs r k))

/-- A slab as a layer of the specification: if the adjacency block is A at every entry and the support is the
    product H · W at every entry, the slab from off holds rows off … off + 255 of max (A · (H · W)) 0. -/
theorem slab256_layer {D : Nat} (Av : FVec Ideal S2048x2048 .f32) (Sv : FVec Ideal S2048x256 .f32)
    (A : Fin 2048 → Fin 2048 → EReal) (H : Fin 2048 → Fin D → EReal) (W : Fin D → Fin 256 → EReal)
    (hA : ∀ p k, Av (ix2 p k) = A p k) (hS : ∀ k c, Sv (ix2 k c) = Cert.Spec.mm H W k c) (off : Nat)
    (hs : S2048x2048.Slices ![off, 0] S256x2048) (r : Fin 256) (c : Fin 256) :
    maximumf (matmul dot_S256x2048_S2048x256_S256x256_1_0_0_1_n_n none (extractStridedSlice S256x2048 ![off, 0] Av hs) Sv
        (constant (F := Ideal) S256x256 .f32 0x00000000#32)) (broadcast S256x256 (Scalar.ofBits .f32 0x00000000#32)) (ix2 r c)
      = Cert.Spec.layer A H W (slabRow off hs r) c :=
  (slab256_apply Av Sv off hs r c).trans (congrArg (fun s : EReal => max s 0)
    (Finset.sum_congr rfl fun k _ => congrArg₂ (fun a b : EReal => a * b) (hA _ k) (hS k c)))

/-- The same for width 128. -/
theorem slab128_layer {D : Nat} (Av : FVec Ideal S2048x2048 .f32) (Sv : FVec Ideal S2048x128 .f32)
    (A : Fin 2048 → Fin 2048 → EReal) (H : Fin 2048 → Fin D → EReal) (W : Fin D → Fin 128 → EReal)
    (hA : ∀ p k, Av (ix2 p k) = A p k) (hS : ∀ k c, Sv (ix2 k c) = Cert.Spec.mm H W k c) (off : Nat)
    (hs : S2048x2048.Slices ![off, 0] S256x2048) (r : Fin 256) (c : Fin 128) :
    maximumf (matmul dot_S256x2048_S2048x128_S256x128_1_0_0_1_n_n none (extractStridedSlice S256x2048 ![off, 0] Av hs) Sv
        (constant (F := Ideal) S256x128 .f32 0x00000000#32)) (broadcast S256x128 (Scalar.ofBits .f32 0x00000000#32)) (ix2 r c)
      = Cert.Spec.layer A H W (slabRow off hs r) c :=
  (slab128_apply Av Sv off hs r c).trans (congrArg (fun s : EReal => max s 0)
    (Finset.sum_congr rfl fun k _ => congrArg₂ (fun a b : EReal => a * b) (hA _ k) (hS k c)))

/-! ## Eight slabs laid end to end -/

/-- Row 256 i + r of a 2048-row matrix, for a slab number i < 8 and a row r < 256 of the slab. -/
abbrev rowOf (i : Fin 8) (r : Fin 256) : Fin 2048 :=
  ⟨256 * i.val + r.val, by have := i.isLt; have := r.isLt; omega⟩

/-- Eight [256, E] pieces laid end to end along the rows, read at (n, c): piece n / 256 at (n % 256, c). -/
theorem concat8_apply {E : Nat} (f : Fin 8 → FVec Ideal ⟨2, ![256, E]⟩ .f32)
    (h : Shape.Concatenates
      (([⟨_, f 0⟩, ⟨_, f 1⟩, ⟨_, f 2⟩, ⟨_, f 3⟩, ⟨_, f 4⟩, ⟨_, f 5⟩, ⟨_, f 6⟩, ⟨_, f 7⟩] :
        List ((s : Shape) × (s.Idx → Ideal .f32))).map (·.1)) ⟨2, ![2048, E]⟩ 0)
    (n : Fin 2048) (c : Fin E) :
    concatenate ⟨2, ![2048, E]⟩ 0 [⟨_, f 0⟩, ⟨_, f 1⟩, ⟨_, f 2⟩, ⟨_, f 3⟩, ⟨_, f 4⟩, ⟨_, f 5⟩, ⟨_, f 6⟩, ⟨_, f 7⟩] h (ix2 n c)
      = f ⟨n.val / 256, by have := n.isLt; omega⟩ (ix2 ⟨n.val % 256, Nat.mod_lt _ (by norm_num)⟩ c) :=
  -- the list of the eight pieces is the list of f's values; the axis is the row axis, every piece 256 rows long
  concatenate_ofFn_apply (t := ⟨2, ![2048, E]⟩) (s₁ := ⟨2, ![256, E]⟩) 0 f h rfl 256 rfl (ix2 n c)
    ⟨n.val / 256, by have := n.isLt; omega⟩ rfl (ix2 ⟨n.val % 256, Nat.mod_lt _ (by norm_num)⟩ c) rfl
    (fun b hb => by
      match b with
      | ⟨0, _⟩ => exact absurd rfl hb
      | ⟨1, _⟩ => rfl)

/-- If piece i holds rows 256 i … 256 i + 255 of a matrix H, the eight pieces laid end to end are H: row n is found
    in piece n / 256 at row n % 256, and 256 (n / 256) + n % 256 = n. -/
theorem concat8_rows {E : Nat} (g0 g1 g2 g3 g4 g5 g6 g7 : FVec Ideal ⟨2, ![256, E]⟩ .f32)
    (h : Shape.Concatenates
      (([⟨_, g0⟩, ⟨_, g1⟩, ⟨_, g2⟩, ⟨_, g3⟩, ⟨_, g4⟩, ⟨_, g5⟩, ⟨_, g6⟩, ⟨_, g7⟩] :
        List ((s : Shape) × (s.Idx → Ideal .f32))).map (·.1)) ⟨2, ![2048, E]⟩ 0)
    (H : Fin 2048 → Fin E → EReal)
    (h0 : ∀ r c, g0 (ix2 r c) = H (rowOf 0 r) c) (h1 : ∀ r c, g1 (ix2 r c) = H (rowOf 1 r) c)
    (h2 : ∀ r c, g2 (ix2 r c) = H (rowOf 2 r) c) (h3 : ∀ r c, g3 (ix2 r c) = H (rowOf 3 r) c)
    (h4 : ∀ r c, g4 (ix2 r c) = H (rowOf 4 r) c) (h5 : ∀ r c, g5 (ix2 r c) = H (rowOf 5 r) c)
    (h6 : ∀ r c, g6 (ix2 r c) = H (rowOf 6 r) c) (h7 : ∀ r c, g7 (ix2 r c) = H (rowOf 7 r) c)
    (n : Fin 2048) (c : Fin E) :
    concatenate ⟨2, ![2048, E]⟩ 0 [⟨_, g0⟩, ⟨_, g1⟩, ⟨_, g2⟩, ⟨_, g3⟩, ⟨_, g4⟩, ⟨_, g5⟩, ⟨_, g6⟩, ⟨_, g7⟩] h (ix2 n c)
      = H n c := by
  -- the pieces as a family over the slab number
  let f : Fin 8 → FVec Ideal ⟨2, ![256, E]⟩ .f32 := ![g0, g1, g2, g3, g4, g5, g6, g7]
  have hf : ∀ (i : Fin 8) (r : Fin 256) (c : Fin E), f i (ix2 r c) = H (rowOf i r) c := fun i =>
    match i with
    | ⟨0, _⟩ => h0 | ⟨1, _⟩ => h1 | ⟨2, _⟩ => h2 | ⟨3, _⟩ => h3
    | ⟨4, _⟩ => h4 | ⟨5, _⟩ => h5 | ⟨6, _⟩ => h6 | ⟨7, _⟩ => h7
  refine (concat8_apply f h n c).trans ((hf _ _ c).trans ?_)
  -- 256 (n / 256) + n % 256 = n
  exact congrArg (fun m : Fin 2048 => H m c) (Fin.ext (Nat.div_add_mod n.val 256))

end Cert.KernelIdeal.Layers

end
-- ==== Proof.KernelLayers.lean ====
/-
  The kernel's three layers, entry by entry, on the extended reals.

  For one graph the kernel holds the adjacency block as a [2048, 2048] matrix (the [1, 2048, 2048] block with its unit
  axis dropped) and computes a layer from the previous layer's values H and a weight matrix W in two steps: the support
  H · W, a plain matrix product into a zero accumulator, and then, for each of eight slabs of 256 rows of the adjacency,
  the product of those rows with the support, clamped below at 0. Entry (r, c) of slab i is entry (256 i + r, c) of
  max (A · (H · W)) 0. The first two layers lay their eight slabs end to end, which gives the whole layer back because
  every row n is 256 (n / 256) + n % 256; the third layer's slabs are consumed one by one, so here each of them is
  identified with the corresponding 256 entries of every column of the hidden values.
-/
import proofs.«108354_g83425444758234_cont_9to1c4b_234_15_alg».proof.Proof.KernelSlab

noncomputable section

open scoped BigOperators

namespace Cert.KernelIdeal.Layers

open Idealize.ShloMosaic Idealize.SL.Sem Idealize.ShloMosaic.ValueIdx
open Cert.KernelIdeal Cert.KernelIdeal.Gen

/-! ## Slabs and supports over arbitrary operands -/

/-- The slab of width 256 cut from the adjacency at row off: those 256 rows times the support, clamped at 0. -/
abbrev slab256 (Av : FVec Ideal S2048x2048 .f32) (Sv : FVec Ideal S2048x256 .f32) (off : Nat)
    (hs : S2048x2048.Slices ![off, 0] S256x2048) : FVec Ideal S256x256 .f32 :=
  maximumf (matmul dot_S256x2048_S2048x256_S256x256_1_0_0_1_n_n none (extractStridedSlice S256x2048 ![off, 0] Av hs) Sv
    (constant (F := Ideal) S256x256 .f32 0x00000000#32)) (broadcast S256x256 (Scalar.ofBits .f32 0x00000000#32))

/-- The slab of width 128. -/
abbrev slab128 (Av : FVec Ideal S2048x2048 .f32) (Sv : FVec Ideal S2048x128 .f32) (off : Nat)
    (hs : S2048x2048.Slices ![off, 0] S256x2048) : FVec Ideal S256x128 .f32 :=
  maximumf (matmul dot_S256x2048_S2048x128_S256x128_1_0_0_1_n_n none (extractStridedSlice S256x2048 ![off, 0] Av hs) Sv
    (constant (F := Ideal) S256x128 .f32 0x00000000#32)) (broadcast S256x128 (Scalar.ofBits .f32 0x00000000#32))

/-- Row off + r is row 256 i + r when the slab starts at off = 256 i. -/
theorem slabRow_eq (i : Fin 8) (off : Nat) (hoff : off = 256 * i.val) (hs : S2048x2048.Slices ![off, 0] S256x2048)
    (r : Fin 256) : slabRow off hs r = rowOf i r :=
  Fin.ext (congrArg (fun m : Nat => m + r.val) hoff)

/-- Slab i of width 256 holds rows 256 i … 256 i + 255 of the layer max (A · (H · W)) 0, given that the adjacency
    operand is A and the support operand is H · W entry by entry. -/
theorem slab256_row {D : Nat} (Av : FVec Ideal S2048x2048 .f32) (Sv : FVec Ideal S2048x256 .f32)
    (A : Fin 2048 → Fin 2048 → EReal) (H : Fin 2048 → Fin D → EReal) (W : Fin D → Fin 256 → EReal)
    (hA : ∀ p k, Av (ix2 p k) = A p k) (hS : ∀ k c, Sv (ix2 k c) = Cert.Spec.mm H W k c)
    (i : Fin 8) (off : Nat) (hoff : off = 256 * i.val) (hs : S2048x2048.Slices ![off, 0] S256x2048)
    (r : Fin 256) (c : Fin 256) :
    slab256 Av Sv off hs (ix2 r c) = Cert.Spec.layer A H W (rowOf i r) c :=
  (slab256_layer Av Sv A H W hA hS off hs r c).trans
    (congrArg (fun m : Fin 2048 => Cert.Spec.layer A H W m c) (slabRow_eq i off hoff hs r))

/-- The same at width 128. -/
theorem slab128_row {D : Nat} (Av : FVec Ideal S2048x2048 .f32) (Sv : FVec Ideal S2048x128 .f32)
    (A : Fin 2048 → Fin 2048 → EReal) (H : Fin 2048 → Fin D → EReal) (W : Fin D → Fin 128 → EReal)
    (hA : ∀ p k, Av (ix2 p k) = A p k) (hS : ∀ k c, Sv (ix2 k c) = Cert.Spec.mm H W k c)
    (i : Fin 8) (off : Nat) (hoff : off = 256 * i.val) (hs : S2048x2048.Slices ![off, 0] S256x2048)
    (r : Fin 256) (c : Fin 128) :
    slab128 Av Sv off hs (ix2 r c) = Cert.Spec.layer A H W (rowOf i r) c :=
  (slab128_layer Av Sv A H W hA hS off hs r c).trans
    (congrArg (fun m : Fin 2048 => Cert.Spec.layer A H W m c) (slabRow_eq i off hoff hs r))

/-- The eight slabs of width 256 laid end to end are the whole layer: slab i supplies rows 256 i … 256 i + 255. -/
theorem layer256_concat {D : Nat} (Av : FVec Ideal S2048x2048 .f32) (Sv : FVec Ideal S2048x256 .f32)
    (A : Fin 2048 → Fin 2048 → EReal) (H : Fin 2048 → Fin D → EReal) (W : Fin D → Fin 256 → EReal)
    (hA : ∀ p k, Av (ix2 p k) = A p k) (hS : ∀ k c, Sv (ix2 k c) = Cert.Spec.mm H W k c)
    (n : Fin 2048) (c : Fin 256) :
    concatenate S2048x256 0
        [⟨S256x256, slab256 Av Sv 0 slices_S2048x2048_o0_0_S256x2048⟩,
        ⟨S256x256, slab256 Av Sv 256 slices_S2048x2048_o256_0_S256x2048⟩,
        ⟨S256x256, slab256 Av Sv 512 slices_S2048x2048_o512_0_S256x2048⟩,
        ⟨S256x256, slab256 Av Sv 768 slices_S2048x2048_o768_0_S256x2048⟩,
        ⟨S256x256, slab256 Av Sv 1024 slices_S2048x2048_o1024_0_S256x2048⟩,
        ⟨S256x256, slab256 Av Sv 1280 slices_S2048x2048_o1280_0_S256x2048⟩,
        ⟨S256x256, slab256 Av Sv 1536 slices_S2048x2048_o1536_0_S256x2048⟩,
        ⟨S256x256, slab256 Av Sv 1792 slices_S2048x2048_o1792_0_S256x2048⟩]
        concatenates_S256x256_S256x256_S256x256_S256x256_S256x256_S256x256_S256x256_S256x256_S2048x256_d0 (ix2 n c)
      = Cert.Spec.layer A H W n c :=
  concat8_rows _ _ _ _ _ _ _ _ _ (Cert.Spec.layer A H W)
    (fun r c => slab256_row Av Sv A H W hA hS 0 0 rfl slices_S2048x2048_o0_0_S256x2048 r c)
    (fun r c => slab256_row Av Sv A H W hA hS 1 256 rfl slices_S2048x2048_o256_0_S256x2048 r c)
    (fun r c => slab256_row Av Sv A H W hA hS 2 512 rfl slices_S2048x2048_o512_0_S256x2048 r c)
    (fun r c => slab256_row Av Sv A H W hA hS 3 768 rfl slices_S2048x2048_o768_0_S256x2048 r c)
    (fun r c => slab256_row Av Sv A H W hA hS 4 1024 rfl slices_S2048x2048_o1024_0_S256x2048 r c)
    (fun r c => slab256_row Av Sv A H W hA hS 5 1280 rfl slices_S2048x2048_o1280_0_S256x2048 r c)
    (fun r c => slab256_row Av Sv A H W hA hS 6 1536 rfl slices_S2048x2048_o1536_0_S256x2048 r c)
    (fun r c => slab256_row Av Sv A H W hA hS 7 1792 rfl slices_S2048x2048_o1792_0_S256x2048 r c)
    n c

/-- A support of width 256: the product of the previous layer's values, known entry by entry, with a weight block. -/
theorem support256_apply (v : FVec Ideal S2048x256 .f32) (w : FVec Ideal S256x256 .f32) (L : Fin 2048 → Fin 256 → EReal)
    (hv : ∀ n k, v (ix2 n k) = L n k) (n : Fin 2048) (c : Fin 256) :
    matmul dot_S2048x256_S256x256_S2048x256_1_0_0_1_n_n none v w (constant (F := Ideal) S2048x256 .f32 0x00000000#32) (ix2 n c)
      = Cert.Spec.mm L (fun d c => w (ix2 d c)) n c := by
  show FloatOps.matmul (DotDims.plain 2048 256 256) none v w
      (constant (F := Ideal) ⟨2, ![2048, 256]⟩ .f32 0x00000000#32) (ix2 n c) = ∑ k : Fin 256, L n k * w (ix2 k c)
  rw [Cert.LibPlainDot.matmul_zero_apply]
  exact Finset.sum_congr rfl fun k _ => congrArg (fun a : EReal => a * w (ix2 k c)) (hv n k)

/-- A support of width 128. -/
theorem support128_apply (v : FVec Ideal S2048x256 .f32) (w : FVec Ideal S256x128 .f32) (L : Fin 2048 → Fin 256 → EReal)
    (hv : ∀ n k, v (ix2 n k) = L n k) (n : Fin 2048) (c : Fin 128) :
    matmul dot_S2048x256_S256x128_S2048x128_1_0_0_1_n_n none v w (constant (F := Ideal) S2048x128 .f32 0x00000000#32) (ix2 n c)
      = Cert.Spec.mm L (fun d c => w (ix2 d c)) n c := by
  show FloatOps.matmul (DotDims.plain 2048 256 128) none v w
      (constant (F := Ideal) ⟨2, ![2048, 128]⟩ .f32 0x00000000#32) (ix2 n c) = ∑ k : Fin 256, L n k * w (ix2 k c)
  rw [Cert.LibPlainDot.matmul_zero_apply]
  exact Finset.sum_congr rfl fun k _ => congrArg (fun a : EReal => a * w (ix2 k c)) (hv n k)

/-- Slab i of a column of the hidden values is that column of the three nested layers at row 256 i + r. -/
theorem hidden_slab (A : Fin 2048 → Fin 2048 → EReal) (X : Fin 2048 → Fin 256 → EReal) (W1 W2 : Fin 256 → Fin 256 → EReal)
    (W3 : Fin 256 → Fin 128 → EReal) (i : Fin 8) (r : Fin 256) (e : Fin 128) :
    Cert.Spec.slabOf (fun n => Cert.Spec.hidden A X W1 W2 W3 n e) i r
      = Cert.Spec.layer A (Cert.Spec.layer A (Cert.Spec.layer A X W1) W2) W3 (rowOf i r) e := rfl

/-! ## The second layer's payload over arbitrary operands -/

/-- The payload that finishes the first layer and computes the second. Its first seven slabs arrive as operands, the
    eighth is computed here from the last 256 rows of the adjacency; laid end to end they are the first layer L. The
    support L · W2 follows, then the eight slabs of the second layer, laid end to end again. -/
theorem pay11_apply (v3 : FVec Ideal S2048x2048 .f32) (v5 : FVec Ideal S2048x256 .f32)
    (v9 v13 v17 v21 v25 v29 v33 : FVec Ideal S256x256 .f32) (v34 : FVec Ideal S256x2048 .f32) (v39 : Vec Ideal S256x256 .f32)
    (A : Fin 2048 → Fin 2048 → EReal) (L : Fin 2048 → Fin 256 → EReal)
    (hA : ∀ p k, v3 (ix2 p k) = A p k)
    (h9 : ∀ r c, v9 (ix2 r c) = L (rowOf 0 r) c) (h13 : ∀ r c, v13 (ix2 r c) = L (rowOf 1 r) c)
    (h17 : ∀ r c, v17 (ix2 r c) = L (rowOf 2 r) c) (h21 : ∀ r c, v21 (ix2 r c) = L (rowOf 3 r) c)
    (h25 : ∀ r c, v25 (ix2 r c) = L (rowOf 4 r) c) (h29 : ∀ r c, v29 (ix2 r c) = L (rowOf 5 r) c)
    (h33 : ∀ r c, v33 (ix2 r c) = L (rowOf 6 r) c)
    (h37 : ∀ r c, maximumf (matmul dot_S256x2048_S2048x256_S256x256_1_0_0_1_n_n none v34 v5
        (constant (F := Ideal) S256x256 .f32 0x00000000#32)) (broadcast S256x256 (Scalar.ofBits .f32 0x00000000#32)) (ix2 r c)
      = L (rowOf 7 r) c)
    (n : Fin 2048) (c : Fin 256) :
    k0_pay11 v3 v5 v9 v13 v17 v21 v25 v29 v33 v34 (constant (F := Ideal) S256x256 .f32 0x00000000#32) v39 (ix2 n c)
      = Cert.Spec.layer A L (fun d c => v39 (ix2 d c)) n c := by
  -- the payload's value is the concatenation of the second layer's eight slabs over the support it computes
  refine layer256_concat v3 _ A L (fun d c => v39 (ix2 d c)) hA ?_ n c
  intro k c'
  -- that support is (the first layer, laid end to end) · W2
  refine support256_apply _ v39 L ?_ k c'
  intro n' k'
  exact concat8_rows v9 v13 v17 v21 v25 v29 v33 _ _ L h9 h13 h17 h21 h25 h29 h33 h37 n' k'

/-- The third layer's support: the second layer's values, known entry by entry, times W3. -/
theorem pay12_apply (v73 : FVec Ideal S2048x256 .f32) (v74 : Vec Ideal S256x128 .f32) (L : Fin 2048 → Fin 256 → EReal)
    (h73 : ∀ n k, v73 (ix2 n k) = L n k) (n : Fin 2048) (e : Fin 128) :
    k0_pay12 v73 v74 (ix2 n e) = Cert.Spec.mm L (fun d c => v74 (ix2 d c)) n e :=
  support128_apply v73 v74 L h73 n e

/-! ## The payloads on one graph's blocks -/

section Blocks

variable (x0 : Vec Ideal S1x2048x256 .f32) (x1 : Vec Ideal S1x2048x2048 .f32) (x2 x3 : Vec Ideal S256x256 .f32)
  (x4 : Vec Ideal S256x128 .f32)

/-- The adjacency block without its unit axis: a shape cast keeps the row-major position, so (p, k) reads (0, p, k). -/
theorem pay1_apply (p k : Fin 2048) : k0_pay1 x1 (ix2 p k) = x1 (ix3 0 p k) :=
  shapeCast_1ab_ab_apply x1 shapeCasts_S1x2048x2048_S2048x2048 p k

local notation "Adj" => (fun (p k : Fin 2048) => x1 (ix3 0 p k))
local notation "Feat" => (fun (p : Fin 2048) (d : Fin 256) => x0 (ix3 0 p d))
local notation "W1" => (fun (d c : Fin 256) => x2 (ix2 d c))
local notation "W2" => (fun (d c : Fin 256) => x3 (ix2 d c))
local notation "W3" => (fun (d : Fin 256) (c : Fin 128) => x4 (ix2 d c))

/-- The first layer's support X · W1: the features block without its unit axis, times the first weight block. -/
theorem pay2_apply (n : Fin 2048) (c : Fin 256) : k0_pay2 x0 x2 (ix2 n c) = Cert.Spec.mm Feat W1 n c := by
  show FloatOps.matmul (DotDims.plain 2048 256 256) none (shapeCast S2048x256 x0 shapeCasts_S1x2048x256_S2048x256) x2
      (constant (F := Ideal) ⟨2, ![2048, 256]⟩ .f32 0x00000000#32) (ix2 n c) = ∑ k : Fin 256, x0 (ix3 0 n k) * x2 (ix2 k c)
  rw [Cert.LibPlainDot.matmul_zero_apply]
  exact Finset.sum_congr rfl fun k _ => congrArg (fun a : EReal => a * x2 (ix2 k c))
    (shapeCast_1ab_ab_apply x0 shapeCasts_S1x2048x256_S2048x256 n k)

/-- Slab 0 of the first layer: rows 0 … 255 of the adjacency against the support X · W1. -/
theorem pay3_apply (r : Fin 256) (c : Fin 256) :
    k0_pay3 x0 x1 x2 (ix2 r c) = Cert.Spec.layer Adj Feat W1 (rowOf 0 r) c :=
  slab256_row (k0_pay1 x1) (k0_pay2 x0 x2) Adj Feat W1 (pay1_apply x1) (pay2_apply x0 x2) 0 0 rfl slices_S2048x2048_o0_0_S256x2048 r c

/-- Slab 1 of the first layer: rows 256 … 511 of the adjacency against the support X · W1. -/
theorem pay4_apply (r : Fin 256) (c : Fin 256) :
    k0_pay4 x0 x1 x2 (ix2 r c) = Cert.Spec.layer Adj Feat W1 (rowOf 1 r) c :=
  slab256_row (k0_pay1 x1) (k0_pay2 x0 x2) Adj Feat W1 (pay1_apply x1) (pay2_apply x0 x2) 1 256 rfl slices_S2048x2048_o256_0_S256x2048 r c

/-- Slab 2 of the first layer: rows 512 … 767 of the adjacency against the support X · W1. -/
theorem pay5_apply (r : Fin 256) (c : Fin 256) :
    k0_pay5 x0 x1 x2 (ix2 r c) = Cert.Spec.layer Adj Feat W1 (rowOf 2 r) c :=
  slab256_row (k0_pay1 x1) (k0_pay2 x0 x2) Adj Feat W1 (pay1_apply x1) (pay2_apply x0 x2) 2 512 rfl slices_S2048x2048_o512_0_S256x2048 r c

/-- Slab 3 of the first layer: rows 768 … 1023 of the adjacency against the support X · W1. -/
theorem pay6_apply (r : Fin 256) (c : Fin 256) :
    k0_pay6 x0 x1 x2 (ix2 r c) = Cert.Spec.layer Adj Feat W1 (rowOf 3 r) c :=
  slab256_row (k0_pay1 x1) (k0_pay2 x0 x2) Adj Feat W1 (pay1_apply x1) (pay2_apply x0 x2) 3 768 rfl slices_S2048x2048_o768_0_S256x2048 r c

/-- Slab 4 of the first layer: rows 1024 … 1279 of the adjacency against the support X · W1. -/
theorem pay7_apply (r : Fin 256) (c : Fin 256) :
    k0_pay7 x0 x1 x2 (ix2 r c) = Cert.Spec.layer Adj Feat W1 (rowOf 4 r) c :=
  slab256_row (k0_pay1 x1) (k0_pay2 x0 x2) Adj Feat W1 (pay1_apply x1) (pay2_apply x0 x2) 4 1024 rfl slices_S2048x2048_o1024_0_S256x2048 r c

/-- Slab 5 of the first layer: rows 1280 … 1535 of the adjacency against the support X · W1. -/
theorem pay8_apply (r : Fin 256) (c : Fin 256) :
    k0_pay8 x0 x1 x2 (ix2 r c) = Cert.Spec.layer Adj Feat W1 (rowOf 5 r) c :=
  slab256_row (k0_pay1 x1) (k0_pay2 x0 x2) Adj Feat W1 (pay1_apply x1) (pay2_apply x0 x2) 5 1280 rfl slices_S2048x2048_o1280_0_S256x2048 r c

/-- Slab 6 of the first layer: rows 1536 … 1791 of the adjacency against the support X · W1. -/
theorem pay9_apply (r : Fin 256) (c : Fin 256) :
    k0_pay9 x0 x1 x2 (ix2 r c) = Cert.Spec.layer Adj Feat W1 (rowOf 6 r) c :=
  slab256_row (k0_pay1 x1) (k0_pay2 x0 x2) Adj Feat W1 (pay1_apply x1) (pay2_apply x0 x2) 6 1536 rfl slices_S2048x2048_o1536_0_S256x2048 r c

local notation "A3" => (k0_pay1 x1)
local notation "V73" => (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 FTy.f32 0x00000000#32) x3)
local notation "V75" => (k0_pay12 V73 x4)
local notation "Hid" => (Cert.Spec.hidden Adj Feat W1 W2 W3)

/-- The second layer, all 2048 rows: the first layer's slabs 0 … 6 come from their own payloads, slab 7 from the last
    256 rows of the adjacency against the same support. -/
theorem h2_apply (n : Fin 2048) (c : Fin 256) :
    V73 (ix2 n c) = Cert.Spec.layer Adj (Cert.Spec.layer Adj Feat W1) W2 n c :=
  pay11_apply (k0_pay1 x1) (k0_pay2 x0 x2) (k0_pay3 x0 x1 x2) (k0_pay4 x0 x1 x2) (k0_pay5 x0 x1 x2) (k0_pay6 x0 x1 x2)
    (k0_pay7 x0 x1 x2) (k0_pay8 x0 x1 x2) (k0_pay9 x0 x1 x2) (k0_pay10 x1) x3 Adj (Cert.Spec.layer Adj Feat W1)
    (pay1_apply x1) (pay3_apply x0 x1 x2) (pay4_apply x0 x1 x2) (pay5_apply x0 x1 x2) (pay6_apply x0 x1 x2)
    (pay7_apply x0 x1 x2) (pay8_apply x0 x1 x2) (pay9_apply x0 x1 x2)
    (fun r c => slab256_row (k0_pay1 x1) (k0_pay2 x0 x2) Adj Feat W1 (pay1_apply x1) (pay2_apply x0 x2) 7 1792 rfl
      slices_S2048x2048_o1792_0_S256x2048 r c)
    n c

/-- The third layer's support, all 2048 rows. -/
theorem h3support_apply (n : Fin 2048) (e : Fin 128) :
    V75 (ix2 n e) = Cert.Spec.mm (Cert.Spec.layer Adj (Cert.Spec.layer Adj Feat W1) W2) W3 n e :=
  pay12_apply V73 x4 _ (h2_apply x0 x1 x2 x3) n e

/-- Slab 0 of the third layer is rows 0 … 255 of the hidden values, column by column. -/
theorem slab3_0 (r : Fin 256) (e : Fin 128) :
    k0_pay14 A3 V73 x4 (ix2 r e)
      = Cert.Spec.slabOf (fun n => Hid n e) 0 r :=
  (slab128_row A3 (k0_pay12 V73 x4) Adj (Cert.Spec.layer Adj (Cert.Spec.layer Adj Feat W1) W2) W3 (pay1_apply x1)
    (fun k c => pay12_apply V73 x4 _ (h2_apply x0 x1 x2 x3) k c) 0 0 rfl slices_S2048x2048_o0_0_S256x2048 r e).trans
    (hidden_slab Adj Feat W1 W2 W3 0 r e).symm

/-- Slab 1 of the third layer is rows 256 … 511 of the hidden values, column by column. -/
theorem slab3_1 (r : Fin 256) (e : Fin 128) :
    k0_pay16 A3 V73 x4 (ix2 r e)
      = Cert.Spec.slabOf (fun n => Hid n e) 1 r :=
  (slab128_row A3 (k0_pay12 V73 x4) Adj (Cert.Spec.layer Adj (Cert.Spec.layer Adj Feat W1) W2) W3 (pay1_apply x1)
    (fun k c => pay12_apply V73 x4 _ (h2_apply x0 x1 x2 x3) k c) 1 256 rfl slices_S2048x2048_o256_0_S256x2048 r e).trans
    (hidden_slab Adj Feat W1 W2 W3 1 r e).symm

/-- Slab 2 of the third layer is rows 512 … 767 of the hidden values, column by column. -/
theorem slab3_2 (r : Fin 256) (e : Fin 128) :
    k0_pay19 A3 V73 x4 (ix2 r e)
      = Cert.Spec.slabOf (fun n => Hid n e) 2 r :=
  (slab128_row A3 (k0_pay12 V73 x4) Adj (Cert.Spec.layer Adj (Cert.Spec.layer Adj Feat W1) W2) W3 (pay1_apply x1)
    (fun k c => pay12_apply V73 x4 _ (h2_apply x0 x1 x2 x3) k c) 2 512 rfl slices_S2048x2048_o512_0_S256x2048 r e).trans
    (hidden_slab Adj Feat W1 W2 W3 2 r e).symm

/-- Slab 3 of the third layer is rows 768 … 1023 of the hidden values, column by column. -/
theorem slab3_3 (r : Fin 256) (e : Fin 128) :
    k0_pay22 A3 V75 (ix2 r e)
      = Cert.Spec.slabOf (fun n => Hid n e) 3 r :=
  (slab128_row A3 V75 Adj (Cert.Spec.layer Adj (Cert.Spec.layer Adj Feat W1) W2) W3 (pay1_apply x1)
    (fun k c => pay12_apply V73 x4 _ (h2_apply x0 x1 x2 x3) k c) 3 768 rfl slices_S2048x2048_o768_0_S256x2048 r e).trans
    (hidden_slab Adj Feat W1 W2 W3 3 r e).symm

/-- Slab 4 of the third layer is rows 1024 … 1279 of the hidden values, column by column. -/
theorem slab3_4 (r : Fin 256) (e : Fin 128) :
    k0_pay24 A3 V75 (ix2 r e)
      = Cert.Spec.slabOf (fun n => Hid n e) 4 r :=
  (slab128_row A3 V75 Adj (Cert.Spec.layer Adj (Cert.Spec.layer Adj Feat W1) W2) W3 (pay1_apply x1)
    (fun k c => pay12_apply V73 x4 _ (h2_apply x0 x1 x2 x3) k c) 4 1024 rfl slices_S2048x2048_o1024_0_S256x2048 r e).trans
    (hidden_slab Adj Feat W1 W2 W3 4 r e).symm

/-- Slab 5 of the third layer is rows 1280 … 1535 of the hidden values, column by column. -/
theorem slab3_5 (r : Fin 256) (e : Fin 128) :
    k0_pay27 A3 V75 (ix2 r e)
      = Cert.Spec.slabOf (fun n => Hid n e) 5 r :=
  (slab128_row A3 V75 Adj (Cert.Spec.layer Adj (Cert.Spec.layer Adj Feat W1) W2) W3 (pay1_apply x1)
    (fun k c => pay12_apply V73 x4 _ (h2_apply x0 x1 x2 x3) k c) 5 1280 rfl slices_S2048x2048_o1280_0_S256x2048 r e).trans
    (hidden_slab Adj Feat W1 W2 W3 5 r e).symm

/-- Slab 6 of the third layer is rows 1536 … 1791 of the hidden values, column by column. -/
theorem slab3_6 (r : Fin 256) (e : Fin 128) :
    maximumf (matmul dot_S256x2048_S2048x128_S256x128_1_0_0_1_n_n none (extractStridedSlice S256x2048 ![1536, 0] A3 slices_S2048x2048_o1536_0_S256x2048) V75
        (constant (F := Ideal) S256x128 .f32 0x00000000#32)) (broadcast S256x128 (Scalar.ofBits .f32 0x00000000#32)) (ix2 r e)
      = Cert.Spec.slabOf (fun n => Hid n e) 6 r :=
  (slab128_row A3 V75 Adj (Cert.Spec.layer Adj (Cert.Spec.layer Adj Feat W1) W2) W3 (pay1_apply x1)
    (fun k c => pay12_apply V73 x4 _ (h2_apply x0 x1 x2 x3) k c) 6 1536 rfl slices_S2048x2048_o1536_0_S256x2048 r e).trans
    (hidden_slab Adj Feat W1 W2 W3 6 r e).symm

/-- Slab 7 of the third layer is rows 1792 … 2047 of the hidden values, column by column. -/
theorem slab3_7 (r : Fin 256) (e : Fin 128) :
    maximumf (matmul dot_S256x2048_S2048x128_S256x128_1_0_0_1_n_n none (extractStridedSlice S256x2048 ![1792, 0] A3 slices_S2048x2048_o1792_0_S256x2048) V75
        (constant (F := Ideal) S256x128 .f32 0x00000000#32)) (broadcast S256x128 (Scalar.ofBits .f32 0x00000000#32)) (ix2 r e)
      = Cert.Spec.slabOf (fun n => Hid n e) 7 r :=
  (slab128_row A3 V75 Adj (Cert.Spec.layer Adj (Cert.Spec.layer Adj Feat W1) W2) W3 (pay1_apply x1)
    (fun k c => pay12_apply V73 x4 _ (h2_apply x0 x1 x2 x3) k c) 7 1792 rfl slices_S2048x2048_o1792_0_S256x2048 r e).trans
    (hidden_slab Adj Feat W1 W2 W3 7 r e).symm

end Blocks

end Cert.KernelIdeal.Layers

end
-- ==== Proof.KernelColumn.lean ====
/-
  Reading the kernel's softmax operations at one column.

  The last layer's values arrive in slabs of 256 rows and 128 columns. For one column e, the body needs only
  four kinds of reads: the maximum of the slab's column e (a reduction over the rows, started at −∞), the sum of a
  slab's column e (a reduction over the rows, started at 0), a row vector [1, 128] read at column e (after a cast
  from [128], or when it is spread over the rows of a slab or of the whole [2048, 128] array), and the stack of
  eight slabs read at a row. Each is stated here over variables, at the extended reals.
-/
import proofs.«108354_g83425444758234_cont_9to1c4b_234_15_alg».proof.Proof.Gen.KernelIdeal.Skeleton
import proofs.«108354_g83425444758234_cont_9to1c4b_234_15_alg».proof.Proof.Spec
import proofs.«108354_g83425444758234_cont_9to1c4b_234_15_alg».proof.Proof.KernelSlab
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Softmax

open Cert.KernelIdeal Cert.KernelIdeal.Gen Idealize.ShloMosaic Idealize.ShloMosaic.ValueIdx

/-- The word the maximum is started from is −∞, the least extended real. -/
theorem negInf_word : (FloatOps.ofBits .f32 0xFF800000#32 : Ideal .f32) = ⊥ := by
  show Ideal.ofBits .f32 0xFF800000#32 = ⊥
  simp [Ideal.ofBits, Ideal.ieee]

/-- The index of a slab over column e with row r put back on the reduced axis is (r, e). -/
theorem lift_row (r : Fin 256) (e : Fin 128) :
    reduces_S256x128_S128.lift (ix1 e) r = ix2 r e := by
  funext c
  match c with
  | ⟨0, _⟩ => exact Fin.ext rfl
  | ⟨1, _⟩ => exact Fin.ext rfl

/-- The maximum over the rows, from −∞, read at column e: the maximum of the slab's column e. -/
theorem rowMax_apply (v : FVec Ideal S256x128 .f32) (e : Fin 128) :
    multiReduction .maximumf [0] S128 v 0xFF800000#32 reduces_S256x128_S128 (.inl rfl) rfl (ix1 e)
      = Cert.Spec.colMax (fun r : Fin 256 => v (ix2 r e)) := by
  -- a maximum over one axis is the fold of max, from the starting word's value, over that axis's coordinates, of the
  -- source at the result index with the coordinate put back on the axis; here the value is −∞ and the index is (r, e)
  refine (Ideal.multiReduction_maximumf_single v (0xFF800000#32 : BitVec 32) reduces_S256x128_S128 (.inl rfl) rfl (ix1 e)).trans ?_
  unfold Cert.Spec.colMax
  rw [negInf_word]
  exact congrArg (fun f => Finset.fold max ⊥ f (Finset.univ : Finset (Fin 256)))
    (funext fun r => congrArg v (lift_row r e))

/-- The sum over the rows, from 0, read at column e: the sum of the slab's column e. -/
theorem rowSum_apply (v : FVec Ideal S256x128 .f32) (e : Fin 128) :
    multiReduction .add [0] S128 v 0x00000000#32 reduces_S256x128_S128 (.inl rfl) rfl (ix1 e)
      = ∑ r : Fin 256, v (ix2 r e) := by
  -- a sum over one axis is the sum, over that axis's coordinates, of the source at the index with the coordinate put back
  refine (Ideal.multiReduction_add_single v (0x00000000#32 : BitVec 32) reduces_S256x128_S128 (.inl rfl) rfl (ix1 e)).trans ?_
  exact Finset.sum_congr rfl fun r _ => congrArg v (lift_row r e)

/-- A vector of 128 entries written as one row reads, at (0, e), its entry e. -/
theorem asRow_apply (w : FVec Ideal S128 .f32) (e : Fin 128) :
    shapeCast S1x128 w shapeCasts_S128_S1x128 (ix2 (0 : Fin 1) e) = w (ix1 e) :=
  shapeCast_a_1a_apply w shapeCasts_S128_S1x128 0 e

/-- One row spread over the 256 rows of a slab reads, at (r, e), the row's entry e. -/
theorem overSlab_apply (u : FVec Ideal S1x128 .f32) (r : Fin 256) (e : Fin 128) :
    broadcastTo S256x128 u broadcasts_S1x128_S256x128 (ix2 r e) = u (ix2 (0 : Fin 1) e) :=
  broadcastTo_1b_ab_apply u broadcasts_S1x128_S256x128 r e

/-- One row spread over all 2048 rows reads, at (n, e), the row's entry e. -/
theorem overAll_apply (u : FVec Ideal S1x128 .f32) (n : Fin 2048) (e : Fin 128) :
    broadcastTo S2048x128 u broadcasts_S1x128_S2048x128 (ix2 n e) = u (ix2 (0 : Fin 1) e) :=
  broadcastTo_1b_ab_apply u broadcasts_S1x128_S2048x128 n e

/-- The [2048, 128] array stored as a [1, 2048, 128] block reads, at (0, n, e), its entry (n, e). -/
theorem asBlock_apply (t : FVec Ideal S2048x128 .f32) (n : Fin 2048) (e : Fin 128) :
    shapeCast S1x2048x128 t shapeCasts_S2048x128_S1x2048x128 (ix3 (0 : Fin 1) n e) = t (ix2 n e) :=
  shapeCast_ab_1ab_apply t shapeCasts_S2048x128_S1x2048x128 0 n e

/-- The stack of eight slabs along the rows, read at column e: if slab i holds, in its column e, rows 256 i, …, 256 i + 255
    of a column h of 2048 entries, the stack holds h in its column e. Row n lies in slab n / 256 at row n mod 256, and
    256 (n / 256) + n mod 256 = n. -/
theorem stack_column (g0 g1 g2 g3 g4 g5 g6 g7 : FVec Ideal S256x128 .f32) (h : Fin 2048 → EReal) (e : Fin 128)
    (h0 : ∀ r : Fin 256, g0 (ix2 r e) = Cert.Spec.slabOf h 0 r) (h1 : ∀ r : Fin 256, g1 (ix2 r e) = Cert.Spec.slabOf h 1 r)
    (h2 : ∀ r : Fin 256, g2 (ix2 r e) = Cert.Spec.slabOf h 2 r) (h3 : ∀ r : Fin 256, g3 (ix2 r e) = Cert.Spec.slabOf h 3 r)
    (h4 : ∀ r : Fin 256, g4 (ix2 r e) = Cert.Spec.slabOf h 4 r) (h5 : ∀ r : Fin 256, g5 (ix2 r e) = Cert.Spec.slabOf h 5 r)
    (h6 : ∀ r : Fin 256, g6 (ix2 r e) = Cert.Spec.slabOf h 6 r) (h7 : ∀ r : Fin 256, g7 (ix2 r e) = Cert.Spec.slabOf h 7 r)
    (n : Fin 2048) :
    concatenate S2048x128 0 [⟨S256x128, g0⟩, ⟨S256x128, g1⟩, ⟨S256x128, g2⟩, ⟨S256x128, g3⟩, ⟨S256x128, g4⟩,
        ⟨S256x128, g5⟩, ⟨S256x128, g6⟩, ⟨S256x128, g7⟩]
        concatenates_S256x128_S256x128_S256x128_S256x128_S256x128_S256x128_S256x128_S256x128_S2048x128_d0 (ix2 n e)
      = h n := by
  -- the eight slabs as a family over the slab number, each with its column e known
  have hf : ∀ (i : Fin 8) (r : Fin 256),
      (![g0, g1, g2, g3, g4, g5, g6, g7] : Fin 8 → FVec Ideal S256x128 .f32) i (ix2 r e) = Cert.Spec.slabOf h i r := fun i =>
    match i with
    | ⟨0, _⟩ => h0 | ⟨1, _⟩ => h1 | ⟨2, _⟩ => h2 | ⟨3, _⟩ => h3
    | ⟨4, _⟩ => h4 | ⟨5, _⟩ => h5 | ⟨6, _⟩ => h6 | ⟨7, _⟩ => h7
  refine (Cert.KernelIdeal.Layers.concat8_apply (![g0, g1, g2, g3, g4, g5, g6, g7] : Fin 8 → FVec Ideal S256x128 .f32)
    concatenates_S256x128_S256x128_S256x128_S256x128_S256x128_S256x128_S256x128_S256x128_S2048x128_d0 n e).trans
    ((hf _ _).trans ?_)
  -- slab n / 256 at row n mod 256 is entry 256 (n / 256) + n mod 256 = n of the column
  exact congrArg h (Fin.ext (Nat.div_add_mod n.val 256))

/-! ## One step of the running pair, read at column e

  The pair (m, s) is the maximum so far and the sum so far of the exponentials of the entries seen, each shifted by
  that maximum. A slab with column g moves m to m' = max m (max of g), and s to s · exp (m − m') + Σ exp (g r − m'):
  the old sum is rescaled to the new shift and the slab's own exponentials are added. -/

/-- The body's step on the row of maxima: entry by entry, the larger of the row m and the slab's column maxima (each taken
    over the 256 rows from −∞, then written as one row). -/
def nextMax (m : FVec Ideal S1x128 .f32) (hs : FVec Ideal S256x128 .f32) : FVec Ideal S1x128 .f32 :=
  maximumf m (shapeCast S1x128 (multiReduction .maximumf [0] S128 hs 0xFF800000#32 reduces_S256x128_S128 (.inl rfl) rfl)
    shapeCasts_S128_S1x128)

/-- The body's step on the row of sums: entry by entry, the row s times the row E of rescaling factors, plus the column sums
    (over the 256 rows from 0, written as one row) of the exponentials of the slab minus the row m' spread over its rows. -/
def nextSum (s E m' : FVec Ideal S1x128 .f32) (hs : FVec Ideal S256x128 .f32) : FVec Ideal S1x128 .f32 :=
  addf (mulf s E) (shapeCast S1x128 (multiReduction .add [0] S128
    (exp (subf hs (broadcastTo S256x128 m' broadcasts_S1x128_S256x128))) 0x00000000#32 reduces_S256x128_S128 (.inl rfl) rfl)
    shapeCasts_S128_S1x128)

/-- The exponential of the difference of two rows, read at column e. -/
theorem expDiff_apply (m m' : FVec Ideal S1x128 .f32) (e : Fin 128) (a b : EReal)
    (hm : m (ix2 (0 : Fin 1) e) = a) (hm' : m' (ix2 (0 : Fin 1) e) = b) :
    exp (subf m m') (ix2 (0 : Fin 1) e) = Ideal.exp (a - b) := by
  show Ideal.exp (m (ix2 (0 : Fin 1) e) - m' (ix2 (0 : Fin 1) e)) = Ideal.exp (a - b)
  rw [hm, hm']

/-- The new maximum: if the row m holds p.1 at column e and the slab's column e is g, the larger of m and the slab's
    column maxima holds, at column e, the first component of the pair after the step. -/
theorem stepMax_apply (m : FVec Ideal S1x128 .f32) (hs : FVec Ideal S256x128 .f32) (e : Fin 128) (g : Fin 256 → EReal)
    (p : EReal × EReal) (hm : m (ix2 (0 : Fin 1) e) = p.1) (hg : ∀ r : Fin 256, hs (ix2 r e) = g r) :
    nextMax m hs (ix2 (0 : Fin 1) e) = (Cert.Spec.step g p).1 := by
  show max (m (ix2 (0 : Fin 1) e)) (shapeCast S1x128 (multiReduction .maximumf [0] S128 hs 0xFF800000#32
      reduces_S256x128_S128 (.inl rfl) rfl) shapeCasts_S128_S1x128 (ix2 (0 : Fin 1) e)) = max p.1 (Cert.Spec.colMax g)
  rw [asRow_apply, rowMax_apply, hm]
  exact congrArg (fun f => max p.1 (Cert.Spec.colMax f)) (funext hg)

/-- The new sum: if the row s holds p.2, the row E holds exp (p.1 − m') and the row m' holds the new maximum m', all at
    column e, and the slab's column e is g, then s · E plus the column sums of exp (slab − m' spread over the rows)
    holds, at column e, the second component of the pair after the step. -/
theorem stepSum_apply (s E m' : FVec Ideal S1x128 .f32) (hs : FVec Ideal S256x128 .f32) (e : Fin 128) (g : Fin 256 → EReal)
    (p : EReal × EReal) (hs0 : s (ix2 (0 : Fin 1) e) = p.2)
    (hE : E (ix2 (0 : Fin 1) e) = Ideal.exp (p.1 - (Cert.Spec.step g p).1))
    (hm' : m' (ix2 (0 : Fin 1) e) = (Cert.Spec.step g p).1) (hg : ∀ r : Fin 256, hs (ix2 r e) = g r) :
    nextSum s E m' hs (ix2 (0 : Fin 1) e) = (Cert.Spec.step g p).2 := by
  show s (ix2 (0 : Fin 1) e) * E (ix2 (0 : Fin 1) e) + shapeCast S1x128 (multiReduction .add [0] S128
      (exp (subf hs (broadcastTo S256x128 m' broadcasts_S1x128_S256x128))) 0x00000000#32 reduces_S256x128_S128 (.inl rfl) rfl)
      shapeCasts_S128_S1x128 (ix2 (0 : Fin 1) e)
    = p.2 * Ideal.exp (p.1 - (Cert.Spec.step g p).1) + ∑ r : Fin 256, Ideal.exp (g r - (Cert.Spec.step g p).1)
  rw [asRow_apply, rowSum_apply, hs0, hE]
  refine congrArg (fun t => p.2 * Ideal.exp (p.1 - (Cert.Spec.step g p).1) + t) (Finset.sum_congr rfl fun r _ => ?_)
  -- one term: the slab's entry (r, e) minus the spread row's entry, which is m' at column e
  show Ideal.exp (hs (ix2 r e) - broadcastTo S256x128 m' broadcasts_S1x128_S256x128 (ix2 r e))
    = Ideal.exp (g r - (Cert.Spec.step g p).1)
  rw [overSlab_apply, hm', hg]

end Cert.KernelIdeal.Softmax

end
-- ==== Proof.KernelSoftmax.lean ====
/-
  The kernel's log-softmax, one column at a time.

  For a column e of the last layer's values the body carries a pair of numbers through the eight slabs of 256 rows:
  the maximum m of the entries seen so far and the sum s of exp (entry − m) over them, both started at 0. A slab with
  column g replaces m by m' = max m (max of g) and s by s · exp (m − m') + Σ exp (g r − m'): the old sum is rescaled to
  the new shift and the slab's own exponentials are added. After the eighth slab the result at row n is the entry
  minus (m + log s). In the vector code both m and s are rows of 128 entries, one per column, and every operation
  acts column by column, so reading each row at column e gives exactly the specification's running pair for the
  column. This file follows the pair down the payloads that hold its stages:

    m₀ = 0 (payload 13) and s₀ = 0; m₁ (15); m₂ (17); s₂, with s₁ inside it (18); m₃ (20); exp (m₂ − m₃) (21);
    m₄ (23); m₅ (25); s₅, with s₃ and s₄ inside it (26); m₆ (28); exp (m₅ − m₆) (29); and payload 30, which does the
    last three steps on the sum and the last two on the maximum, takes the logarithm, stacks the eight slabs and
    subtracts.

  The slabs' own values enter as hypotheses: slab i's column e is rows 256 i, …, 256 i + 255 of a column h.
-/
import proofs.«108354_g83425444758234_cont_9to1c4b_234_15_alg».proof.Proof.Gen.KernelIdeal.Skeleton
import proofs.«108354_g83425444758234_cont_9to1c4b_234_15_alg».proof.Proof.Spec
import proofs.«108354_g83425444758234_cont_9to1c4b_234_15_alg».proof.Proof.KernelColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Softmax

open Cert.KernelIdeal Cert.KernelIdeal.Gen Idealize.ShloMosaic Idealize.ShloMosaic.ValueIdx

/-! ## The running pair after i slabs -/

/-- The pair (maximum so far, sum so far) after the first slab of the column h, from (0, 0). -/
def after1 (h : Fin 2048 → EReal) : EReal × EReal := Cert.Spec.step (Cert.Spec.slabOf h 0) (0, 0)
/-- … after two slabs. -/
def after2 (h : Fin 2048 → EReal) : EReal × EReal := Cert.Spec.step (Cert.Spec.slabOf h 1) (after1 h)
/-- … after three slabs. -/
def after3 (h : Fin 2048 → EReal) : EReal × EReal := Cert.Spec.step (Cert.Spec.slabOf h 2) (after2 h)
/-- … after four slabs. -/
def after4 (h : Fin 2048 → EReal) : EReal × EReal := Cert.Spec.step (Cert.Spec.slabOf h 3) (after3 h)
/-- … after five slabs. -/
def after5 (h : Fin 2048 → EReal) : EReal × EReal := Cert.Spec.step (Cert.Spec.slabOf h 4) (after4 h)
/-- … after six slabs. -/
def after6 (h : Fin 2048 → EReal) : EReal × EReal := Cert.Spec.step (Cert.Spec.slabOf h 5) (after5 h)
/-- … after seven slabs. -/
def after7 (h : Fin 2048 → EReal) : EReal × EReal := Cert.Spec.step (Cert.Spec.slabOf h 6) (after6 h)
/-- … after all eight slabs. -/
def after8 (h : Fin 2048 → EReal) : EReal × EReal := Cert.Spec.step (Cert.Spec.slabOf h 7) (after7 h)

/-- The specification's final pair is the pair after eight slabs. -/
theorem online_eq (h : Fin 2048 → EReal) : Cert.Spec.online h = after8 h := rfl

/-! ## Slabs 0, 1, 2: the payloads over the adjacency, the second layer's values and the last weights -/

section FirstThree

variable (A3 : FVec Ideal S2048x2048 .f32) (V73 : FVec Ideal S2048x256 .f32) (x4 : Vec Ideal S256x128 .f32)
  (h : Fin 2048 → EReal) (e : Fin 128)

/-- m₀: the starting maximum is the number 0 in every column. -/
theorem pay13_apply : (k0_pay13 (F := Ideal)) (ix2 (0 : Fin 1) e) = 0 := Ideal.ofBits_zero_f32

/-- m₁: the maximum after the first slab. -/
theorem pay15_apply (h0 : ∀ r : Fin 256, k0_pay14 A3 V73 x4 (ix2 r e) = Cert.Spec.slabOf h 0 r) :
    k0_pay15 A3 V73 x4 (ix2 (0 : Fin 1) e) = (after1 h).1 :=
  stepMax_apply (k0_pay13 (F := Ideal)) (k0_pay14 A3 V73 x4) e (Cert.Spec.slabOf h 0) (0, 0) (pay13_apply e) h0

/-- m₂: the maximum after two slabs. -/
theorem pay17_apply (h0 : ∀ r : Fin 256, k0_pay14 A3 V73 x4 (ix2 r e) = Cert.Spec.slabOf h 0 r)
    (h1 : ∀ r : Fin 256, k0_pay16 A3 V73 x4 (ix2 r e) = Cert.Spec.slabOf h 1 r) :
    k0_pay17 A3 V73 x4 (ix2 (0 : Fin 1) e) = (after2 h).1 :=
  stepMax_apply (k0_pay15 A3 V73 x4) (k0_pay16 A3 V73 x4) e (Cert.Spec.slabOf h 1) (after1 h) (pay15_apply A3 V73 x4 h e h0) h1

/-- s₂: the sum after two slabs. The payload first forms s₁ from s₀ = 0, the factor exp (m₀ − m₁) and the first slab
    shifted by m₁, then s₂ from s₁, the factor exp (m₁ − m₂) and the second slab shifted by m₂. -/
theorem pay18_apply (h0 : ∀ r : Fin 256, k0_pay14 A3 V73 x4 (ix2 r e) = Cert.Spec.slabOf h 0 r)
    (h1 : ∀ r : Fin 256, k0_pay16 A3 V73 x4 (ix2 r e) = Cert.Spec.slabOf h 1 r) :
    k0_pay18 A3 V73 x4 (ix2 (0 : Fin 1) e) = (after2 h).2 := by
  have m1 := pay15_apply A3 V73 x4 h e h0
  have m2 := pay17_apply A3 V73 x4 h e h0 h1
  -- the second step, whose incoming sum is the first step's result
  refine stepSum_apply _ _ (k0_pay17 A3 V73 x4) (k0_pay16 A3 V73 x4) e (Cert.Spec.slabOf h 1) (after1 h) ?_
    (expDiff_apply _ _ e _ _ m1 m2) m2 h1
  -- the first step, from s₀ = 0
  exact stepSum_apply (broadcast S1x128 (Scalar.ofBits .f32 0x00000000#32)) _ (k0_pay15 A3 V73 x4) (k0_pay14 A3 V73 x4) e
    (Cert.Spec.slabOf h 0) (0, 0) Ideal.ofBits_zero_f32 (expDiff_apply _ _ e _ _ (pay13_apply e) m1) m1 h0

/-- m₃: the maximum after three slabs. -/
theorem pay20_apply (h0 : ∀ r : Fin 256, k0_pay14 A3 V73 x4 (ix2 r e) = Cert.Spec.slabOf h 0 r)
    (h1 : ∀ r : Fin 256, k0_pay16 A3 V73 x4 (ix2 r e) = Cert.Spec.slabOf h 1 r)
    (h2 : ∀ r : Fin 256, k0_pay19 A3 V73 x4 (ix2 r e) = Cert.Spec.slabOf h 2 r) :
    k0_pay20 A3 V73 x4 (ix2 (0 : Fin 1) e) = (after3 h).1 :=
  stepMax_apply (k0_pay17 A3 V73 x4) (k0_pay19 A3 V73 x4) e (Cert.Spec.slabOf h 2) (after2 h) (pay17_apply A3 V73 x4 h e h0 h1) h2

/-- The factor that rescales s₂ to the shift m₃: exp (m₂ − m₃). -/
theorem pay21_apply (h0 : ∀ r : Fin 256, k0_pay14 A3 V73 x4 (ix2 r e) = Cert.Spec.slabOf h 0 r)
    (h1 : ∀ r : Fin 256, k0_pay16 A3 V73 x4 (ix2 r e) = Cert.Spec.slabOf h 1 r)
    (h2 : ∀ r : Fin 256, k0_pay19 A3 V73 x4 (ix2 r e) = Cert.Spec.slabOf h 2 r) :
    k0_pay21 A3 V73 x4 (ix2 (0 : Fin 1) e) = Ideal.exp ((after2 h).1 - (after3 h).1) :=
  expDiff_apply (k0_pay17 A3 V73 x4) (k0_pay20 A3 V73 x4) e _ _ (pay17_apply A3 V73 x4 h e h0 h1) (pay20_apply A3 V73 x4 h e h0 h1 h2)

end FirstThree

/-! ## Slabs 3, 4, 5: the payloads over the adjacency, the last product, and the rows handed on (s₂, m₃, exp (m₂ − m₃))

  Here the incoming rows are arguments, so they are variables with their value at column e as a hypothesis. -/

section NextThree

variable (A3 : FVec Ideal S2048x2048 .f32) (v75 : FVec Ideal S2048x128 .f32) (v109 : FVec Ideal S1x128 .f32)
  (v113 : FVec Ideal S256x128 .f32) (v116 v118 : FVec Ideal S1x128 .f32) (h : Fin 2048 → EReal) (e : Fin 128)

/-- m₄: the maximum after four slabs, from the row holding m₃. -/
theorem pay23_apply (h3 : ∀ r : Fin 256, k0_pay22 A3 v75 (ix2 r e) = Cert.Spec.slabOf h 3 r)
    (hm3 : v116 (ix2 (0 : Fin 1) e) = (after3 h).1) :
    k0_pay23 A3 v75 v116 (ix2 (0 : Fin 1) e) = (after4 h).1 :=
  stepMax_apply v116 (k0_pay22 A3 v75) e (Cert.Spec.slabOf h 3) (after3 h) hm3 h3

/-- m₅: the maximum after five slabs. -/
theorem pay25_apply (h3 : ∀ r : Fin 256, k0_pay22 A3 v75 (ix2 r e) = Cert.Spec.slabOf h 3 r)
    (h4 : ∀ r : Fin 256, k0_pay24 A3 v75 (ix2 r e) = Cert.Spec.slabOf h 4 r)
    (hm3 : v116 (ix2 (0 : Fin 1) e) = (after3 h).1) :
    k0_pay25 A3 v75 v116 (ix2 (0 : Fin 1) e) = (after5 h).1 :=
  stepMax_apply (k0_pay23 A3 v75 v116) (k0_pay24 A3 v75) e (Cert.Spec.slabOf h 4) (after4 h) (pay23_apply A3 v75 v116 h e h3 hm3) h4

/-- s₅: the sum after five slabs. The payload forms s₃ from the rows handed on (s₂, the factor exp (m₂ − m₃), the third
    slab and m₃), then s₄ and s₅ with the factors exp (m₃ − m₄) and exp (m₄ − m₅) it computes itself. -/
theorem pay26_apply (h2 : ∀ r : Fin 256, v113 (ix2 r e) = Cert.Spec.slabOf h 2 r)
    (h3 : ∀ r : Fin 256, k0_pay22 A3 v75 (ix2 r e) = Cert.Spec.slabOf h 3 r)
    (h4 : ∀ r : Fin 256, k0_pay24 A3 v75 (ix2 r e) = Cert.Spec.slabOf h 4 r)
    (hs2 : v109 (ix2 (0 : Fin 1) e) = (after2 h).2) (hm3 : v116 (ix2 (0 : Fin 1) e) = (after3 h).1)
    (hE : v118 (ix2 (0 : Fin 1) e) = Ideal.exp ((after2 h).1 - (after3 h).1)) :
    k0_pay26 A3 v75 v109 v113 v116 v118 (ix2 (0 : Fin 1) e) = (after5 h).2 := by
  have m4 := pay23_apply A3 v75 v116 h e h3 hm3
  have m5 := pay25_apply A3 v75 v116 h e h3 h4 hm3
  -- the fifth step, whose incoming sum is the fourth step's result
  refine stepSum_apply _ _ (k0_pay25 A3 v75 v116) (k0_pay24 A3 v75) e (Cert.Spec.slabOf h 4) (after4 h) ?_
    (expDiff_apply _ _ e _ _ m4 m5) m5 h4
  -- the fourth step, whose incoming sum is the third step's result
  refine stepSum_apply _ _ (k0_pay23 A3 v75 v116) (k0_pay22 A3 v75) e (Cert.Spec.slabOf h 3) (after3 h) ?_
    (expDiff_apply _ _ e _ _ hm3 m4) m4 h3
  -- the third step, all of whose rows were handed on
  exact stepSum_apply v109 v118 v116 v113 e (Cert.Spec.slabOf h 2) (after2 h) hs2 hE hm3 h2

/-- m₆: the maximum after six slabs. -/
theorem pay28_apply (h3 : ∀ r : Fin 256, k0_pay22 A3 v75 (ix2 r e) = Cert.Spec.slabOf h 3 r)
    (h4 : ∀ r : Fin 256, k0_pay24 A3 v75 (ix2 r e) = Cert.Spec.slabOf h 4 r)
    (h5 : ∀ r : Fin 256, k0_pay27 A3 v75 (ix2 r e) = Cert.Spec.slabOf h 5 r)
    (hm3 : v116 (ix2 (0 : Fin 1) e) = (after3 h).1) :
    k0_pay28 A3 v75 v116 (ix2 (0 : Fin 1) e) = (after6 h).1 :=
  stepMax_apply (k0_pay25 A3 v75 v116) (k0_pay27 A3 v75) e (Cert.Spec.slabOf h 5) (after5 h) (pay25_apply A3 v75 v116 h e h3 h4 hm3) h5

/-- The factor that rescales s₅ to the shift m₆: exp (m₅ − m₆). -/
theorem pay29_apply (h3 : ∀ r : Fin 256, k0_pay22 A3 v75 (ix2 r e) = Cert.Spec.slabOf h 3 r)
    (h4 : ∀ r : Fin 256, k0_pay24 A3 v75 (ix2 r e) = Cert.Spec.slabOf h 4 r)
    (h5 : ∀ r : Fin 256, k0_pay27 A3 v75 (ix2 r e) = Cert.Spec.slabOf h 5 r)
    (hm3 : v116 (ix2 (0 : Fin 1) e) = (after3 h).1) :
    k0_pay29 A3 v75 v116 (ix2 (0 : Fin 1) e) = Ideal.exp ((after5 h).1 - (after6 h).1) :=
  expDiff_apply (k0_pay25 A3 v75 v116) (k0_pay28 A3 v75 v116) e _ _ (pay25_apply A3 v75 v116 h e h3 h4 hm3)
    (pay28_apply A3 v75 v116 h e h3 h4 h5 hm3)

end NextThree

/-! ## Slabs 5, 6, 7, the logarithm and the subtraction -/

/-- The last stretch, over variables for the eight slabs and the three rows handed on (s₅, m₆ and the factor
    exp (m₅ − m₆)). The sum takes three more steps (with slabs 5, 6, 7) and the maximum two (with slabs 6, 7); the stored
    block at (0, n, e) is the stack's entry (n, e) minus m₈ + log s₈ at column e, and the stack's column e is h. -/
theorem tail_apply (g0 g1 g2 g3 g4 g5 g6 g7 : FVec Ideal S256x128 .f32) (s5 m6 E6 : FVec Ideal S1x128 .f32)
    (h : Fin 2048 → EReal) (e : Fin 128)
    (h0 : ∀ r : Fin 256, g0 (ix2 r e) = Cert.Spec.slabOf h 0 r) (h1 : ∀ r : Fin 256, g1 (ix2 r e) = Cert.Spec.slabOf h 1 r) (h2 : ∀ r : Fin 256, g2 (ix2 r e) = Cert.Spec.slabOf h 2 r) (h3 : ∀ r : Fin 256, g3 (ix2 r e) = Cert.Spec.slabOf h 3 r)
    (h4 : ∀ r : Fin 256, g4 (ix2 r e) = Cert.Spec.slabOf h 4 r) (h5 : ∀ r : Fin 256, g5 (ix2 r e) = Cert.Spec.slabOf h 5 r) (h6 : ∀ r : Fin 256, g6 (ix2 r e) = Cert.Spec.slabOf h 6 r) (h7 : ∀ r : Fin 256, g7 (ix2 r e) = Cert.Spec.slabOf h 7 r)
    (hs5 : s5 (ix2 (0 : Fin 1) e) = (after5 h).2) (hm6 : m6 (ix2 (0 : Fin 1) e) = (after6 h).1)
    (hE : E6 (ix2 (0 : Fin 1) e) = Ideal.exp ((after5 h).1 - (after6 h).1)) (n : Fin 2048) :
    shapeCast S1x2048x128
      (subf
        (concatenate S2048x128 0 [⟨S256x128, g0⟩, ⟨S256x128, g1⟩, ⟨S256x128, g2⟩, ⟨S256x128, g3⟩, ⟨S256x128, g4⟩,
          ⟨S256x128, g5⟩, ⟨S256x128, g6⟩, ⟨S256x128, g7⟩]
          concatenates_S256x128_S256x128_S256x128_S256x128_S256x128_S256x128_S256x128_S256x128_S2048x128_d0)
        (broadcastTo S2048x128
          (addf (nextMax (nextMax m6 g6) g7)
            (log (nextSum (nextSum (nextSum s5 E6 m6 g5) (exp (subf m6 (nextMax m6 g6))) (nextMax m6 g6) g6)
              (exp (subf (nextMax m6 g6) (nextMax (nextMax m6 g6) g7))) (nextMax (nextMax m6 g6) g7) g7)))
          broadcasts_S1x128_S2048x128))
      shapeCasts_S2048x128_S1x2048x128 (ix3 (0 : Fin 1) n e)
      = Cert.Spec.onlineLogSoftmax h n := by
  -- the maxima after seven and after eight slabs
  have m7 : nextMax m6 g6 (ix2 (0 : Fin 1) e) = (after7 h).1 :=
    stepMax_apply m6 g6 e (Cert.Spec.slabOf h 6) (after6 h) hm6 h6
  have m8 : nextMax (nextMax m6 g6) g7 (ix2 (0 : Fin 1) e) = (after8 h).1 :=
    stepMax_apply (nextMax m6 g6) g7 e (Cert.Spec.slabOf h 7) (after7 h) m7 h7
  -- the sums after six, seven and eight slabs; each factor is exp (old maximum − new maximum)
  have s6 : nextSum s5 E6 m6 g5 (ix2 (0 : Fin 1) e) = (after6 h).2 :=
    stepSum_apply s5 E6 m6 g5 e (Cert.Spec.slabOf h 5) (after5 h) hs5 hE hm6 h5
  have s7 : nextSum (nextSum s5 E6 m6 g5) (exp (subf m6 (nextMax m6 g6))) (nextMax m6 g6) g6 (ix2 (0 : Fin 1) e)
      = (after7 h).2 :=
    stepSum_apply (nextSum s5 E6 m6 g5) (exp (subf m6 (nextMax m6 g6))) (nextMax m6 g6) g6 e (Cert.Spec.slabOf h 6) (after6 h) s6
      (expDiff_apply m6 (nextMax m6 g6) e _ _ hm6 m7) m7 h6
  have s8 : nextSum (nextSum (nextSum s5 E6 m6 g5) (exp (subf m6 (nextMax m6 g6))) (nextMax m6 g6) g6)
      (exp (subf (nextMax m6 g6) (nextMax (nextMax m6 g6) g7))) (nextMax (nextMax m6 g6) g7) g7 (ix2 (0 : Fin 1) e)
      = (after8 h).2 :=
    stepSum_apply _ (exp (subf (nextMax m6 g6) (nextMax (nextMax m6 g6) g7))) (nextMax (nextMax m6 g6) g7) g7 e
      (Cert.Spec.slabOf h 7) (after7 h) s7 (expDiff_apply (nextMax m6 g6) (nextMax (nextMax m6 g6) g7) e _ _ m7 m8) m8 h7
  -- the stored block at (0, n, e) is the difference at (n, e): the stack's entry minus the spread row's entry
  refine (asBlock_apply _ n e).trans ?_
  refine (subf_apply _ _ (ix2 n e)).trans ?_
  -- the stack's entry is h n
  refine congrArg₂ (fun a b : EReal => a - b) (stack_column g0 g1 g2 g3 g4 g5 g6 g7 h e h0 h1 h2 h3 h4 h5 h6 h7 n) ?_
  -- the spread row's entry is the row's entry at column e: m₈ + log s₈
  refine (overAll_apply _ n e).trans ?_
  refine (addf_apply _ _ (ix2 (0 : Fin 1) e)).trans ?_
  exact congrArg₂ (fun a b : EReal => a + Ideal.log b) m8 s8

/-- The payload that writes the result, applied as the kernel applies it, read at (0, n, e): the log-softmax of the
    column h at row n, computed from the running pair. The rows handed to it are s₅ (payload 26), m₆ (28) and
    exp (m₅ − m₆) (29); slabs 0 to 5 are handed to it and slabs 6 and 7 it computes itself. -/
theorem pay30_apply (A3 : FVec Ideal S2048x2048 .f32) (V73 : FVec Ideal S2048x256 .f32) (x4 : Vec Ideal S256x128 .f32)
    (h : Fin 2048 → EReal) (e : Fin 128)
    (h0 : ∀ r : Fin 256, k0_pay14 A3 V73 x4 (ix2 r e) = Cert.Spec.slabOf h 0 r)
    (h1 : ∀ r : Fin 256, k0_pay16 A3 V73 x4 (ix2 r e) = Cert.Spec.slabOf h 1 r)
    (h2 : ∀ r : Fin 256, k0_pay19 A3 V73 x4 (ix2 r e) = Cert.Spec.slabOf h 2 r)
    (h3 : ∀ r : Fin 256, k0_pay22 A3 (k0_pay12 V73 x4) (ix2 r e) = Cert.Spec.slabOf h 3 r)
    (h4 : ∀ r : Fin 256, k0_pay24 A3 (k0_pay12 V73 x4) (ix2 r e) = Cert.Spec.slabOf h 4 r)
    (h5 : ∀ r : Fin 256, k0_pay27 A3 (k0_pay12 V73 x4) (ix2 r e) = Cert.Spec.slabOf h 5 r)
    (h6 : ∀ r : Fin 256, maximumf (matmul dot_S256x2048_S2048x128_S256x128_1_0_0_1_n_n none
          (extractStridedSlice S256x2048 ![1536, 0] A3 slices_S2048x2048_o1536_0_S256x2048) (k0_pay12 V73 x4)
          (constant (F := Ideal) S256x128 .f32 0x00000000#32)) (broadcast S256x128 (Scalar.ofBits .f32 0x00000000#32)) (ix2 r e) = Cert.Spec.slabOf h 6 r)
    (h7 : ∀ r : Fin 256, maximumf (matmul dot_S256x2048_S2048x128_S256x128_1_0_0_1_n_n none
          (extractStridedSlice S256x2048 ![1792, 0] A3 slices_S2048x2048_o1792_0_S256x2048) (k0_pay12 V73 x4)
          (constant (F := Ideal) S256x128 .f32 0x00000000#32)) (broadcast S256x128 (Scalar.ofBits .f32 0x00000000#32)) (ix2 r e) = Cert.Spec.slabOf h 7 r)
    (n : Fin 2048) :
    k0_pay30 A3 (k0_pay12 V73 x4) (k0_pay14 A3 V73 x4) (k0_pay16 A3 V73 x4) (k0_pay19 A3 V73 x4)
        (k0_pay22 A3 (k0_pay12 V73 x4)) (k0_pay24 A3 (k0_pay12 V73 x4))
        (k0_pay26 A3 (k0_pay12 V73 x4) (k0_pay18 A3 V73 x4) (k0_pay19 A3 V73 x4) (k0_pay20 A3 V73 x4) (k0_pay21 A3 V73 x4))
        (k0_pay27 A3 (k0_pay12 V73 x4)) (k0_pay28 A3 (k0_pay12 V73 x4) (k0_pay20 A3 V73 x4))
        (k0_pay29 A3 (k0_pay12 V73 x4) (k0_pay20 A3 V73 x4)) (ix3 (0 : Fin 1) n e)
      = Cert.Spec.onlineLogSoftmax h n :=
  -- m₃ at column e, which the payloads of slabs 3, 4, 5 take as a handed-on row
  have m3 := pay20_apply A3 V73 x4 h e h0 h1 h2
  tail_apply (k0_pay14 A3 V73 x4) (k0_pay16 A3 V73 x4) (k0_pay19 A3 V73 x4) (k0_pay22 A3 (k0_pay12 V73 x4))
    (k0_pay24 A3 (k0_pay12 V73 x4)) (k0_pay27 A3 (k0_pay12 V73 x4)) _ _
    (k0_pay26 A3 (k0_pay12 V73 x4) (k0_pay18 A3 V73 x4) (k0_pay19 A3 V73 x4) (k0_pay20 A3 V73 x4) (k0_pay21 A3 V73 x4))
    (k0_pay28 A3 (k0_pay12 V73 x4) (k0_pay20 A3 V73 x4)) (k0_pay29 A3 (k0_pay12 V73 x4) (k0_pay20 A3 V73 x4)) h e
    h0 h1 h2 h3 h4 h5 h6 h7
    (pay26_apply A3 (k0_pay12 V73 x4) (k0_pay18 A3 V73 x4) (k0_pay19 A3 V73 x4) (k0_pay20 A3 V73 x4) (k0_pay21 A3 V73 x4) h e
      h2 h3 h4 (pay18_apply A3 V73 x4 h e h0 h1) m3 (pay21_apply A3 V73 x4 h e h0 h1 h2))
    (pay28_apply A3 (k0_pay12 V73 x4) (k0_pay20 A3 V73 x4) h e h3 h4 h5 m3)
    (pay29_apply A3 (k0_pay12 V73 x4) (k0_pay20 A3 V73 x4) h e h3 h4 h5 m3) n

end Cert.KernelIdeal.Softmax

end
-- ==== Proof.KernelBlock.lean ====
/-
  What one grid point leaves in its output block, entry by entry.

  The body makes one store, of the whole [1, 2048, 128] block, and every load is of a whole block, so the block after
  the body is the stored value computed from the five blocks themselves. Its entry (0, n, e): the eight slabs of the
  third layer are rows 256 i … 256 i + 255 of that graph's hidden values (Proof/KernelLayers.lean), so by the reading
  of the running maximum and sum (Proof/KernelSoftmax.lean) the entry is column e's log-softmax in the running form,
  taken at row n.
-/
import proofs.«108354_g83425444758234_cont_9to1c4b_234_15_alg».proof.Proof.Gen.KernelIdeal.Frame
import proofs.«108354_g83425444758234_cont_9to1c4b_234_15_alg».proof.Proof.KernelLayers
import proofs.«108354_g83425444758234_cont_9to1c4b_234_15_alg».proof.Proof.KernelSoftmax
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.TcCoe Idealize.SL.Sem Idealize.ShloMosaic.ValueIdx

theorem zero3 : (![0, 0, 0] : Fin 3 → Nat) = fun _ => 0 := funext fun a => by fin_cases a <;> rfl
theorem zero2 : (![0, 0] : Fin 2 → Nat) = fun _ => 0 := funext fun a => by fin_cases a <;> rfl

/-- The output block after the body: the one store's value, each load of a whole block being the block. -/
theorem out_eq (x0 : Vec Ideal S1x2048x256 .f32) (x1 : Vec Ideal S1x2048x2048 .f32) (x2 x3 : Vec Ideal S256x256 .f32) (x4 : Vec Ideal S256x128 .f32) :
    out0_5 (F := Ideal) x0 x1 x2 x3 x4
      = k0_pay30 (k0_pay1 x1) (k0_pay12 (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4) (k0_pay14 (k0_pay1 x1) (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4) (k0_pay16 (k0_pay1 x1) (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4) (k0_pay19 (k0_pay1 x1) (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4) (k0_pay22 (k0_pay1 x1) (k0_pay12 (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4)) (k0_pay24 (k0_pay1 x1) (k0_pay12 (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4))
      (k0_pay26 (k0_pay1 x1) (k0_pay12 (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4) (k0_pay18 (k0_pay1 x1) (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4) (k0_pay19 (k0_pay1 x1) (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4) (k0_pay20 (k0_pay1 x1) (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4) (k0_pay21 (k0_pay1 x1) (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4))
      (k0_pay27 (k0_pay1 x1) (k0_pay12 (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4)) (k0_pay28 (k0_pay1 x1) (k0_pay12 (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4) (k0_pay20 (k0_pay1 x1) (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4)) (k0_pay29 (k0_pay1 x1) (k0_pay12 (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4) (k0_pay20 (k0_pay1 x1) (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4)) := by
  unfold out0_5
  rw [View.canon_unit_zero zero3]
  rw [show View.ld x0 r0_0 = x0 from View.ld_unit_zero zero3 _ x0, show View.ld x1 r0_1 = x1 from View.ld_unit_zero zero3 _ x1,
    show View.ld x2 r0_2 = x2 from View.ld_unit_zero zero2 _ x2, show View.ld x3 r0_2 = x3 from View.ld_unit_zero zero2 _ x3,
    show View.ld x4 r0_3 = x4 from View.ld_unit_zero zero2 _ x4]

/-- Entry (0, n, e) of the block is the running-form log-softmax, at row n, of column e of the graph's hidden values. -/
theorem blockValue : ∀ (x0 : Vec Ideal S1x2048x256 .f32) (x1 : Vec Ideal S1x2048x2048 .f32) (x2 x3 : Vec Ideal S256x256 .f32) (x4 : Vec Ideal S256x128 .f32) (n : Fin 2048) (e : Fin 128),
    out0_5 (F := Ideal) x0 x1 x2 x3 x4 (ix3 (0 : Fin 1) n e)
      = Cert.Spec.onlineLogSoftmax (fun n' => (Cert.Spec.hidden (fun p k => x1 (ix3 0 p k)) (fun p d => x0 (ix3 0 p d)) (fun d c => x2 (ix2 d c)) (fun d c => x3 (ix2 d c)) (fun d c => x4 (ix2 d c))) n' e) n := by
  intro x0 x1 x2 x3 x4 n e
  rw [out_eq]
  exact Cert.KernelIdeal.Softmax.pay30_apply (k0_pay1 x1) (k0_pay11 (k0_pay1 x1) (k0_pay2 x0 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x1) (constant (F := Ideal) S256x256 .f32 0x00000000#32) x3) x4 (fun n' => (Cert.Spec.hidden (fun p k => x1 (ix3 0 p k)) (fun p d => x0 (ix3 0 p d)) (fun d c => x2 (ix2 d c)) (fun d c => x3 (ix2 d c)) (fun d c => x4 (ix2 d c))) n' e) e
    (fun r => Cert.KernelIdeal.Layers.slab3_0 x0 x1 x2 x3 x4 r e) (fun r => Cert.KernelIdeal.Layers.slab3_1 x0 x1 x2 x3 x4 r e)
    (fun r => Cert.KernelIdeal.Layers.slab3_2 x0 x1 x2 x3 x4 r e) (fun r => Cert.KernelIdeal.Layers.slab3_3 x0 x1 x2 x3 x4 r e)
    (fun r => Cert.KernelIdeal.Layers.slab3_4 x0 x1 x2 x3 x4 r e) (fun r => Cert.KernelIdeal.Layers.slab3_5 x0 x1 x2 x3 x4 r e)
    (fun r => Cert.KernelIdeal.Layers.slab3_6 x0 x1 x2 x3 x4 r e) (fun r => Cert.KernelIdeal.Layers.slab3_7 x0 x1 x2 x3 x4 r e) n

end Cert.KernelIdeal.Block

end
-- ==== Proof.Blocks.lean ====
/-
  From the blocks to the arrays, for the kernel at the exact (extended-real) arithmetic.

  The kernel runs on a grid of eight points, one graph each. Given what one point leaves in its result block as a
  function of its five input blocks (a hypothesis here), the result ARRAY after the whole run is one function of the
  five argument arrays: entry (b, n, e) is the running-form log-softmax, over the nodes, at node n, of column e of graph
  b's hidden values. Three things are needed: each input block at a point is graph b's part of its array (the weights:
  the whole matrix); the result block of the point sits at graph b's part of the result array; and the eight result
  blocks cover the result array.
-/
import proofs.«108354_g83425444758234_cont_9to1c4b_234_15_alg».proof.Proof.Gen.KernelIdeal.Value
import proofs.«108354_g83425444758234_cont_9to1c4b_234_15_alg».proof.Proof.RealColumn
import Idealize.ShloMosaic.Lib.Pipeline.Value
import Idealize.ShloMosaic.Lib.ValueIdx

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What one grid point computes, as a hypothesis

The kernel runs once per graph. At a point its six staging buffers hold one graph's features [1, 2048, 256], the
graph's adjacency block [1, 2048, 2048], the three weight matrices whole, and the graph's block [1, 2048, 128] of the
result. That the body leaves in the last buffer, at (0, n, e), the running-form log-softmax over the nodes of column e of
the hidden values built from the other five is shown elsewhere; here it is an assumption, and what follows moves it
from the blocks to the whole arrays. -/

/-- What one block's result is, entry by entry, from that graph's blocks. -/
def BlockValue : Prop := ∀ (x0 : Vec Ideal S1x2048x256 .f32) (x1 : Vec Ideal S1x2048x2048 .f32) (x2 x3 : Vec Ideal S256x256 .f32)
    (x4 : Vec Ideal S256x128 .f32) (n : Fin 2048) (e : Fin 128),
    out0_5 (F := Ideal) x0 x1 x2 x3 x4 (ix3 0 n e)
      = Cert.Spec.onlineLogSoftmax (fun n' => Cert.Spec.hidden (fun p k => x1 (ix3 0 p k)) (fun p d => x0 (ix3 0 p d))
          (fun d c => x2 (ix2 d c)) (fun d c => x3 (ix2 d c)) (fun d c => x4 (ix2 d c)) n' e) n

/-- The same at an entry i = (b, n, e) of the whole result, given that the five blocks are graph b's part of the five
    arrays: the features' and the adjacency's block entry (0, p, ·) is the array's entry (b, p, ·), the weights' blocks
    are the arrays. The result's block entry y = (0, n, e) is then the running-form log-softmax of column e of graph b's
    hidden values at node n, which is the array-level function at i. -/
theorem block_entry (hB : BlockValue)
    (X : (⟨3, ![8, 2048, 256]⟩ : Shape).Idx → EReal) (ADJ : (⟨3, ![8, 2048, 2048]⟩ : Shape).Idx → EReal)
    (W1 W2 : (⟨2, ![256, 256]⟩ : Shape).Idx → EReal) (W3 : (⟨2, ![256, 128]⟩ : Shape).Idx → EReal)
    (x0 : Vec Ideal S1x2048x256 .f32) (x1 : Vec Ideal S1x2048x2048 .f32) (x2 x3 : Vec Ideal S256x256 .f32)
    (x4 : Vec Ideal S256x128 .f32) (i : (⟨3, ![8, 2048, 128]⟩ : Shape).Idx) (y : (⟨3, ![1, 2048, 128]⟩ : Shape).Idx)
    (h1 : (i 1).val = (y 1).val) (h2 : (i 2).val = (y 2).val)
    (hx0 : ∀ p d, x0 (ix3 0 p d) = X (ix3 (i 0) p d)) (hx1 : ∀ p k, x1 (ix3 0 p k) = ADJ (ix3 (i 0) p k))
    (hx2 : ∀ d c, x2 (ix2 d c) = W1 (ix2 d c)) (hx3 : ∀ d c, x3 (ix2 d c) = W2 (ix2 d c))
    (hx4 : ∀ d c, x4 (ix2 d c) = W3 (ix2 d c)) :
    out0_5 (F := Ideal) x0 x1 x2 x3 x4 y = Cert.Spec.outOnline X ADJ W1 W2 W3 i := by
  obtain ⟨a, n, e, rfl⟩ : ∃ a n e, y = ix3 a n e := ⟨y 0, y 1, y 2, eq_ix3 y⟩
  obtain rfl : a = 0 := Fin.eq_zero a
  obtain ⟨b, n', e', rfl⟩ : ∃ b n' e', i = ix3 b n' e' := ⟨i 0, i 1, i 2, eq_ix3 i⟩
  obtain rfl : n' = n := Fin.ext h1
  obtain rfl : e' = e := Fin.ext h2
  rw [hB, Cert.Spec.outOnline_apply]
  unfold Cert.Spec.column
  have e0 : (fun p d => x0 (ix3 0 p d)) = fun p d => X (ix3 b p d) := funext fun p => funext fun d => hx0 p d
  have e1 : (fun p k => x1 (ix3 0 p k)) = fun p k => ADJ (ix3 b p k) := funext fun p => funext fun k => hx1 p k
  have e2 : (fun d c => x2 (ix2 d c)) = fun d c => W1 (ix2 d c) := funext fun d => funext fun c => hx2 d c
  have e3 : (fun d c => x3 (ix2 d c)) = fun d c => W2 (ix2 d c) := funext fun d => funext fun c => hx3 d c
  have e4 : (fun d c => x4 (ix2 d c)) = fun d c => W3 (ix2 d c) := funext fun d => funext fun c => hx4 d c
  rw [e0, e1, e2, e3, e4]

/-! ## Where each window's block sits at a point

Coordinate a of a block entry, seen in the array, is (the window's block index on axis a) × (the block's extent on
axis a) + 1 × (the coordinate inside the block). The block indices are printed functions of the grid point; their
values are decided once over the eight points: the features', the adjacency's and the result's windows are at block
(g, 0, 0) for one and the same g ≤ 7, and the three weight windows stay at block (0, 0). -/

theorem index_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 7 ∧ win0_5.index t (1 : Fin 3) = 0 ∧ win0_5.index t (2 : Fin 3) = 0 :=
  (by decide +kernel : ∀ t : Fin grid0.N, _)

/-- Every graph is some point's: the result's window is at block (q, 0, 0) at some point. -/
theorem point_of_graph : ∀ q : Fin 8, ∃ t : Fin cfg0.N, win0_5.index t = ![q.val, 0, 0] :=
  (by decide +kernel : ∀ q : Fin 8, ∃ t : Fin grid0.N, win0_5.index t = ![q.val, 0, 0])

/-- The features' block at a point: entry (0, p, d) is the array's entry (b, p, d), b the point's graph. -/
theorem features_block (c : Dev nD) (t : Fin cfg0.N) (b : Fin 8) (hb : b.val = win0_5.index t (0 : Fin 3))
    (p : Fin 2048) (d : Fin 256) :
    (iblk m c 0 t : Vec Ideal S1x2048x256 .f32) (ix3 0 p d) = (V m c main_arg0 : S8x2048x256.Idx → EReal) (ix3 b p d) := by
  obtain ⟨f00, f01, f02, -⟩ := index_facts t
  unfold iblk
  rw [View.read_apply]
  show (V m c main_arg0 : S8x2048x256.Idx → EReal) (((cfg0.win 0).blk t).view.emb (ix3 0 p d)) = _
  refine congrArg (V m c main_arg0 : S8x2048x256.Idx → EReal) (funext fun a => Fin.ext ?_)
  match a with
  | ⟨0, _⟩ => show win0_0.index t (0 : Fin 3) * 1 + 1 * 0 = b.val; omega
  | ⟨1, _⟩ => show win0_0.index t (1 : Fin 3) * 2048 + 1 * p.val = p.val; omega
  | ⟨2, _⟩ => show win0_0.index t (2 : Fin 3) * 256 + 1 * d.val = d.val; omega

/-- The adjacency's block at a point: entry (0, p, k) is the array's entry (b, p, k), b the point's graph. -/
theorem adjacency_block (c : Dev nD) (t : Fin cfg0.N) (b : Fin 8) (hb : b.val = win0_5.index t (0 : Fin 3))
    (p k : Fin 2048) :
    (iblk m c 1 t : Vec Ideal S1x2048x2048 .f32) (ix3 0 p k) = (V m c main_arg1 : S8x2048x2048.Idx → EReal) (ix3 b p k) := by
  obtain ⟨-, -, -, f10, f11, f12, -⟩ := index_facts t
  unfold iblk
  rw [View.read_apply]
  show (V m c main_arg1 : S8x2048x2048.Idx → EReal) (((cfg0.win 1).blk t).view.emb (ix3 0 p k)) = _
  refine congrArg (V m c main_arg1 : S8x2048x2048.Idx → EReal) (funext fun a => Fin.ext ?_)
  match a with
  | ⟨0, _⟩ => show win0_1.index t (0 : Fin 3) * 1 + 1 * 0 = b.val; omega
  | ⟨1, _⟩ => show win0_1.index t (1 : Fin 3) * 2048 + 1 * p.val = p.val; omega
  | ⟨2, _⟩ => show win0_1.index t (2 : Fin 3) * 2048 + 1 * k.val = k.val; omega

/-- The first weight matrix's block at any point is the matrix. -/
theorem weights1_block (c : Dev nD) (t : Fin cfg0.N) (d : Fin 256) (q : Fin 256) :
    (iblk m c 2 t : Vec Ideal S256x256 .f32) (ix2 d q) = (V m c main_arg2 : S256x256.Idx → EReal) (ix2 d q) := by
  obtain ⟨-, -, -, -, -, -, f20, f21, -⟩ := index_facts t
  unfold iblk
  rw [View.read_apply]
  show (V m c main_arg2 : S256x256.Idx → EReal) (((cfg0.win 2).blk t).view.emb (ix2 d q)) = _
  refine congrArg (V m c main_arg2 : S256x256.Idx → EReal) (funext fun a => Fin.ext ?_)
  match a with
  | ⟨0, _⟩ => show win0_2.index t (0 : Fin 2) * 256 + 1 * d.val = d.val; omega
  | ⟨1, _⟩ => show win0_2.index t (1 : Fin 2) * 256 + 1 * q.val = q.val; omega

/-- The second weight matrix's block at any point is the matrix. -/
theorem weights2_block (c : Dev nD) (t : Fin cfg0.N) (d : Fin 256) (q : Fin 256) :
    (iblk m c 3 t : Vec Ideal S256x256 .f32) (ix2 d q) = (V m c main_arg3 : S256x256.Idx → EReal) (ix2 d q) := by
  obtain ⟨-, -, -, -, -, -, -, -, f30, f31, -⟩ := index_facts t
  unfold iblk
  rw [View.read_apply]
  show (V m c main_arg3 : S256x256.Idx → EReal) (((cfg0.win 3).blk t).view.emb (ix2 d q)) = _
  refine congrArg (V m c main_arg3 : S256x256.Idx → EReal) (funext fun a => Fin.ext ?_)
  match a with
  | ⟨0, _⟩ => show win0_3.index t (0 : Fin 2) * 256 + 1 * d.val = d.val; omega
  | ⟨1, _⟩ => show win0_3.index t (1 : Fin 2) * 256 + 1 * q.val = q.val; omega

/-- The third weight matrix's block at any point is the matrix. -/
theorem weights3_block (c : Dev nD) (t : Fin cfg0.N) (d : Fin 256) (q : Fin 128) :
    (iblk m c 4 t : Vec Ideal S256x128 .f32) (ix2 d q) = (V m c main_arg4 : S256x128.Idx → EReal) (ix2 d q) := by
  obtain ⟨-, -, -, -, -, -, -, -, -, -, f40, f41, -⟩ := index_facts t
  unfold iblk
  rw [View.read_apply]
  show (V m c main_arg4 : S256x128.Idx → EReal) (((cfg0.win 4).blk t).view.emb (ix2 d q)) = _
  refine congrArg (V m c main_arg4 : S256x128.Idx → EReal) (funext fun a => Fin.ext ?_)
  match a with
  | ⟨0, _⟩ => show win0_4.index t (0 : Fin 2) * 256 + 1 * d.val = d.val; omega
  | ⟨1, _⟩ => show win0_4.index t (1 : Fin 2) * 128 + 1 * q.val = q.val; omega

/-! ## What a point writes back, and the array after the run -/

/-- What point t writes back is block t of the array-level function: entry y = (0, n, e) of the point's result sits at
    (g, n, e) in the array, g the point's graph, and the five input blocks are graph g's parts of the arrays. -/
theorem flushed_eq (hB : BlockValue) (c : Dev nD) (t : Fin cfg0.N) :
    (dats m 0 c).flushed 5 t = ((cfg0.win 5).blk t).view.read (Elt Ideal) (Cert.Spec.outOnline (V m c main_arg0) (V m c main_arg1) (V m c main_arg2) (V m c main_arg3) (V m c main_arg4)) := by
  rw [Value.flushed5]
  funext y
  obtain ⟨-, -, -, -, -, -, -, -, -, -, -, -, f50, f51, f52⟩ := index_facts t
  show out0_5 (F := Ideal) (iblk m c 0 t) (iblk m c 1 t) (iblk m c 2 t) (iblk m c 3 t) (iblk m c 4 t) y
    = Cert.Spec.outOnline (V m c main_arg0) (V m c main_arg1) (V m c main_arg2) (V m c main_arg3) (V m c main_arg4)
        (((cfg0.win 5).blk t).view.emb y)
  have hg : ((((cfg0.win 5).blk t).view.emb y : S8x2048x128.Idx) 0).val = win0_5.index t (0 : Fin 3) := by
    show win0_5.index t (0 : Fin 3) * 1 + 1 * ((y : S1x2048x128.Idx) 0).val = _
    have : ((y : S1x2048x128.Idx) 0).val < 1 := ((y : S1x2048x128.Idx) 0).isLt
    omega
  refine block_entry hB (V m c main_arg0) (V m c main_arg1) (V m c main_arg2) (V m c main_arg3) (V m c main_arg4)
    (iblk m c 0 t) (iblk m c 1 t) (iblk m c 2 t) (iblk m c 3 t) (iblk m c 4 t) (((cfg0.win 5).blk t).view.emb y) y ?_ ?_
    (fun p d => features_block m c t _ hg p d) (fun p k => adjacency_block m c t _ hg p k)
    (fun d q => weights1_block m c t d q) (fun d q => weights2_block m c t d q) (fun d q => weights3_block m c t d q)
  · show win0_5.index t (1 : Fin 3) * 2048 + 1 * ((y : S1x2048x128.Idx) 1).val = ((y : S1x2048x128.Idx) 1).val; omega
  · show win0_5.index t (2 : Fin 3) * 128 + 1 * ((y : S1x2048x128.Idx) 2).val = ((y : S1x2048x128.Idx) 2).val; omega

/-- An index of the result array is in point t's block exactly when each coordinate lies in the block's range on its
    axis: from (block index) × (extent) up to, not including, that plus the extent. -/
theorem mem_block (t : Fin cfg0.N) (i : S8x2048x128.Idx) :
    i ∈ ((cfg0.win 5).blk t).view.set ↔ ∀ a : Fin 3, win0_5.index t a * S1x2048x128.size a ≤ (i a).val
      ∧ (i a).val < win0_5.index t a * S1x2048x128.size a + S1x2048x128.size a := by
  show i ∈ ((View.whole main_v0).slice (win0_5.rect t)).set ↔ _
  rw [View.set_slice_whole, Rect.mem_set_unit]
  exact Iff.rfl

/-- Every index (b, n, e) of the result array is in the block of the point whose graph is b: that block is all of
    graph b's nodes and labels. -/
theorem covered (i : S8x2048x128.Idx) :
    ∃ t : Fin cfg0.N, (cfg0.win 5).flush t = true ∧ i ∈ ((cfg0.win 5).blk t).view.set := by
  obtain ⟨t, ht⟩ := point_of_graph (i 0)
  have q0 : win0_5.index t (0 : Fin 3) = (i 0).val := congrFun ht 0
  have q1 : win0_5.index t (1 : Fin 3) = 0 := congrFun ht 1
  have q2 : win0_5.index t (2 : Fin 3) = 0 := congrFun ht 2
  have h1 : (i 1).val < 2048 := (i 1).isLt
  have h2 : (i 2).val < 128 := (i 2).isLt
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 128 ≤ (i 2).val ∧ (i 2).val < win0_5.index t (2 : Fin 3) * 128 + 128; omega

/-- The result array after the run: the eight points' blocks cover it and each is a block of the one array-level
    function, so the array is that function of the five argument arrays as launched. -/
theorem final (hB : BlockValue) (c : Dev nD) :
    (dats m 0 c).arrAt 5 cfg0.N
      = Cert.Spec.outOnline (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 5
    (Cert.Spec.outOnline (V m c main_arg0) (V m c main_arg1) (V m c main_arg2) (V m c main_arg3) (V m c main_arg4))
    (fun t _ => flushed_eq m hB c t) covered

/-- The run, read: the result array holds the array-level function of the argument arrays, which are unchanged. -/
theorem run (hB : BlockValue) : θ_run defs (onTc (τ := τ) (main (F := Ideal))) ⟨m, fun _ => 0, ρ⟩ fun r => ∀ c : Dev nD,
      r.2.mem ((c : Thread nD τ).loc main_v0)
        = Cert.Spec.outOnline (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m hB c), (h c).2⟩) (Value.run_blocks m ρ)

end Cert.KernelIdeal.Blocks

end
-- ==== Proof.lean ====
/-
  The kernel runs three graph-convolution layers and a log-softmax over the nodes for one graph per grid point, and the
  reference does the same for all eight graphs at once; on the extended reals they give the same array.

  One layer sends the hidden values H of a graph to max (A · (H · W)) 0, A the graph's adjacency block. The kernel
  forms A · S eight rows-slabs at a time and lays the slabs end to end, the reference forms it whole with a batched
  product; entry by entry both are the same two nested sums (Proof/KernelLayers.lean for the kernel over
  Proof/KernelSlab.lean, Proof/RefValue.lean for the reference), so after three layers both hold the same hidden
  values, Spec.hidden. The reference then takes, for each column of the hidden values, the maximum M over the nodes,
  and returns (h − M) − log Σ exp (h − M). The kernel instead passes once over the column slab by slab carrying the
  maximum so far (started at 0) and the sum so far of exponentials shifted by it, rescaling the sum whenever the
  maximum grows, and returns h − (m + log s) (Proof/KernelSoftmax.lean reads the pair off the body). The two agree on a
  column of nonnegative real numbers (Proof/OnlineSoftmax.lean): rescaling is exp (a − m) · exp (m − m') = exp (a − m')
  under a finite sum, the hidden values are nonnegative so the start at 0 changes no maximum, and the final sum is a
  positive real. That the entries are real numbers is what the precondition gives (Proof/Finite.lean: every input
  entry is finite; Proof/RealColumn.lean: sums of products of reals, and their maxima with 0, are real).

  The kernel's array after its run is read block by block from the generated frame (Proof/KernelBlock.lean: one
  block's result from that graph's blocks; Proof/Blocks.lean: the eight blocks tile the array). The reference's run is
  read in four stretches of its operations — the three layers and the log-softmax — each over an arbitrary incoming
  state (Proof/RefRun.lean). The word-level kernel and the idealized one differ by no rewrite, so nothing is owed for
  the idealization; the three frames are the generated frame certificates and the reference's run with its result
  dropped.
-/
import proofs.«108354_g83425444758234_cont_9to1c4b_234_15_alg».proof.Defs
import proofs.«108354_g83425444758234_cont_9to1c4b_234_15_alg».proof.Proof.Gen.Kernel
import proofs.«108354_g83425444758234_cont_9to1c4b_234_15_alg».proof.Proof.Gen.Kernel.Frame
import proofs.«108354_g83425444758234_cont_9to1c4b_234_15_alg».proof.Proof.Gen.KernelIdeal
import proofs.«108354_g83425444758234_cont_9to1c4b_234_15_alg».proof.Proof.Gen.KernelIdeal.Frame
import proofs.«108354_g83425444758234_cont_9to1c4b_234_15_alg».proof.Proof.Gen.KernelIdeal.Value
import proofs.«108354_g83425444758234_cont_9to1c4b_234_15_alg».proof.Proof.Gen.ReferenceIdeal
import proofs.«108354_g83425444758234_cont_9to1c4b_234_15_alg».proof.Proof.Gen.Pre_finite_inputs
import proofs.«108354_g83425444758234_cont_9to1c4b_234_15_alg».proof.Proof.RealColumn
import proofs.«108354_g83425444758234_cont_9to1c4b_234_15_alg».proof.Proof.Finite
import proofs.«108354_g83425444758234_cont_9to1c4b_234_15_alg».proof.Proof.RefRun
import proofs.«108354_g83425444758234_cont_9to1c4b_234_15_alg».proof.Proof.RefValue
import proofs.«108354_g83425444758234_cont_9to1c4b_234_15_alg».proof.Proof.KernelBlock
import proofs.«108354_g83425444758234_cont_9to1c4b_234_15_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.StagedRun.run (F := Ideal) m ρ)

/-- The idealized kernel is the kernel's own text read on the extended reals: no rewrite to account for. -/
theorem preserves : Cert.preserves_Kernel_KernelIdeal := trivial

/-- From memories agreeing on the five arguments, all finite, both programs end with the log-softmax over the nodes of
    the three-layer hidden values, Spec.out of the arguments: the kernel in its running form, equal to it because the
    entries are real numbers; the reference literally. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Blocks.run m ρ Cert.KernelIdeal.Block.blockValue)
    obtain ⟨h0, h1, h2, h3, h4⟩ := Cert.Finite.reals_of_pre _ _ _ _ _ (hpre c)
    exact Cert.Spec.outOnline_eq_out _ _ _ _ _ h0 h1 h2 h3 h4
  · refine (θ_run Cert.ReferenceIdeal.defs _ _).mono (fun r h c => ⟨(h c).1.trans ?_, (h c).2⟩)
      (Cert.ReferenceIdeal.StagedRun.run (F := Ideal) m' ρ')
    rw [Cert.ReferenceIdeal.RefValue.val_eq_out, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
